-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S850000 : Shape := ⟨1, ![850000]⟩
abbrev S50000x96 : Shape := ⟨2, ![50000, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel

variable [Facts]

def fn {F : FTy → Type} [FloatOps F] (main_arg0 : IVec S850000 32) (main_arg1 : IVec S850000 32) (main_arg2 : FVec F S50000x96 .f32) : IVec S_ 1 :=
  let main_v0 : FVec F S50000x96 .f32 := Host.absf main_arg2
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  main_v3
-- ==== Kernel.lean ====
abbrev S850000 : Shape := ⟨1, ![850000]⟩
abbrev S50000x96 : Shape := ⟨2, ![50000, 96]⟩
abbrev S_ : Shape := ⟨0, ![]⟩
abbrev S50000 : Shape := ⟨1, ![50000]⟩
abbrev S850000x1 : Shape := ⟨2, ![850000, 1]⟩
abbrev S50000x1 : Shape := ⟨2, ![50000, 1]⟩
abbrev S5000x96 : Shape := ⟨2, ![5000, 96]⟩
abbrev S5000x1 : Shape := ⟨2, ![5000, 1]⟩
abbrev S850000x96 : Shape := ⟨2, ![850000, 96]⟩

abbrev nBuf : Space → Nat
  | .hbm => 81
  | .vmem => 54
  | .smem => 0
  | _ => 0

abbrev bufTy : (tb : Table) → Fin (tcTables nBuf tb) → BufTy
  | .hbm, ⟨0, _⟩ => ⟨S850000, .i32⟩
  | .hbm, ⟨1, _⟩ => ⟨S850000, .i32⟩
  | .hbm, ⟨2, _⟩ => ⟨S50000x96, .f32⟩
  | .hbm, ⟨3, _⟩ => ⟨S_, .f32⟩
  | .hbm, ⟨4, _⟩ => ⟨S850000, .f32⟩
  | .hbm, ⟨5, _⟩ => ⟨S_, .f32⟩
  | .hbm, ⟨6, _⟩ => ⟨S50000, .f32⟩
  | .hbm, ⟨7, _⟩ => ⟨S850000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x1, .f32⟩
  | .hbm, ⟨33, _⟩ => ⟨S50000x1, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000x96, .f32⟩
  | .hbm, ⟨46, _⟩ => ⟨S_, .f32⟩
  | .hbm, ⟨47, _⟩ => ⟨S50000x96, .f32⟩
  | .hbm, ⟨48, _⟩ => ⟨S850000x1, .i32⟩
  | .hbm, ⟨49, _⟩ => ⟨S50000x96, .f32⟩
  | .hbm, ⟨50, _⟩ => ⟨S50000x96, .f32⟩
  | .hbm, ⟨51, _⟩ => ⟨S50000x96, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x96, .f32⟩
  | .hbm, ⟨61, _⟩ => ⟨S_, .f32⟩
  | .hbm, ⟨62, _⟩ => ⟨S50000x96, .f32⟩
  | .hbm, ⟨63, _⟩ => ⟨S850000x1, .i32⟩
  | .hbm, ⟨64, _⟩ => ⟨S50000x96, .f32⟩
  | .hbm, ⟨65, _⟩ => ⟨S50000x96, .f32⟩
  | .hbm, ⟨66, _⟩ => ⟨S50000x96, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x96, .f32⟩
  | .hbm, ⟨76, _⟩ => ⟨S_, .f32⟩
  | .hbm, ⟨77, _⟩ => ⟨S50000x96, .f32⟩
  | .hbm, ⟨78, _⟩ => ⟨S850000x1, .i32⟩
  | .hbm, ⟨79, _⟩ => ⟨S50000x96, .f32⟩
  | .hbm, ⟨80, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x1, .f32⟩
  | .local _ .vmem, ⟨3, _⟩ => ⟨S5000x1, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x1, .f32⟩
  | .local _ .vmem, ⟨9, _⟩ => ⟨S5000x1, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x1, .f32⟩
  | .local _ .vmem, ⟨15, _⟩ => ⟨S5000x1, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x1, .f32⟩
  | .local _ .vmem, ⟨25, _⟩ => ⟨S5000x1, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x1, .f32⟩
  | .local _ .vmem, ⟨31, _⟩ => ⟨S5000x1, .f32⟩
  | .local _ .vmem, ⟨32, _⟩ => ⟨S5000x96, .f32⟩
  | .local _ .vmem, ⟨33, _⟩ => ⟨S5000x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | .local _ .vmem, ⟨38, _⟩ => ⟨S5000x96, .f32⟩
  | .local _ .vmem, ⟨39, _⟩ => ⟨S5000x96, .f32⟩
  | .local _ .vmem, ⟨40, _⟩ => ⟨S5000x1, .f32⟩
  | .local _ .vmem, ⟨41, _⟩ => ⟨S5000x1, .f32⟩
  | .local _ .vmem, ⟨42, _⟩ => ⟨S5000x96, .f32⟩
  | .local _ .vmem, ⟨43, _⟩ => ⟨S5000x96, .f32⟩
  | .local _ .vmem, ⟨44, _⟩ => ⟨S5000x96, .f32⟩
  | .local _ .vmem, ⟨45, _⟩ => ⟨S5000x96, .f32⟩
  | .local _ .vmem, ⟨46, _⟩ => ⟨S5000x1, .f32⟩
  | .local _ .vmem, ⟨47, _⟩ => ⟨S5000x1, .f32⟩
  | .local _ .vmem, ⟨48, _⟩ => ⟨S5000x96, .f32⟩
  | .local _ .vmem, ⟨49, _⟩ => ⟨S5000x96, .f32⟩
  | .local _ .vmem, ⟨50, _⟩ => ⟨S5000x96, .f32⟩
  | .local _ .vmem, ⟨51, _⟩ => ⟨S5000x96, .f32⟩
  | .local _ .vmem, ⟨52, _⟩ => ⟨S5000x96, .f32⟩
  | .local _ .vmem, ⟨53, _⟩ => ⟨S5000x96, .f32⟩
  | _, _ => ⟨S850000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_13 : Ref sig .tc := ⟨.hbm, 67, rfl⟩
abbrev main_v49 : Ref sig .tc := ⟨.hbm, 68, rfl⟩
abbrev main_v50 : Ref sig .tc := ⟨.hbm, 69, rfl⟩
abbrev main_c_14 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem3_1 : DmaSem sig := 51
abbrev cc6_sem4_0 : DmaSem sig := 52
abbrev cc6_sem4_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x96 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x96 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x96 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x96 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x96 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x96 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x96_S5000x96_0_0 : ∀ a, (![0, 0] : Fin 2 → Nat) a + S5000x96.size a ≤ S5000x96.size a
  h_S5000x96 : 0 < S5000x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  bcast_S_S50000x96 : S_.BroadcastsInDim S50000x96 (![] : Fin 0 → Fin S50000x96.rank)
  shapeCasts_S5000x96_S5000x96 : S5000x96.ShapeCasts S5000x96
  scatter_S50000_S850000x1_S850000_n_0_0_1_wf : ScatterDims.WF S50000 S850000x1 S850000 [] [0] [0] 1
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x96.size a ≤ S50000x96.size a
  hwx2_4 : ∀ i : grid2.Coords, EltTy.bits .f32 = 32 ∨ (Rect.block (s := S50000x96) S5000x96.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S50000x96.size a
  hwx3_2 : ∀ i : grid3.Coords, EltTy.bits .f32 = 32 ∨ (Rect.block (s := S50000x96) S5000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x96.size a ≤ S50000x96.size a
  hwx4_2 : ∀ i : grid4.Coords, EltTy.bits .f32 = 32 ∨ (Rect.block (s := S50000x96) S5000x96.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x96.size a ≤ S50000x96.size a
  hwx4_3 : ∀ i : grid4.Coords, EltTy.bits .f32 = 32 ∨ (Rect.block (s := S50000x96) S5000x96.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x96.size a ≤ S50000x96.size a
  hwx4_4 : ∀ i : grid4.Coords, EltTy.bits .f32 = 32 ∨ (Rect.block (s := S50000x96) S5000x96.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x96.size a ≤ S50000x96.size a
  hwx5_2 : ∀ i : grid5.Coords, EltTy.bits .f32 = 32 ∨ (Rect.block (s := S50000x96) S5000x96.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x96.size a ≤ S50000x96.size a
  hwx6_2 : ∀ i : grid6.Coords, EltTy.bits .f32 = 32 ∨ (Rect.block (s := S50000x96) S5000x96.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x96.size a ≤ S50000x96.size a
  hwx6_3 : ∀ i : grid6.Coords, EltTy.bits .f32 = 32 ∨ (Rect.block (s := S50000x96) S5000x96.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x96.size a ≤ S50000x96.size a
  hwx6_4 : ∀ i : grid6.Coords, EltTy.bits .f32 = 32 ∨ (Rect.block (s := S50000x96) S5000x96.size (cc6_transform_4 i) (hinb6_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

abbrev win0_0 : Pipeline.Window sig grid0 :=
  Pipeline.Window.ofSpec (Memref.whole main_arg2) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x96.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x96.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v35) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S5000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S5000x96.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v23) S5000x96.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v47) S5000x96.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v47) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v48) S5000x96.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v58) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v22) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v47) S5000x96.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v23) S5000x96.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v59) S5000x96.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S850000 : Shape := ⟨1, ![850000]⟩
abbrev S50000x96 : Shape := ⟨2, ![50000, 96]⟩
abbrev S_ : Shape := ⟨0, ![]⟩
abbrev S50000 : Shape := ⟨1, ![50000]⟩
abbrev S850000x1 : Shape := ⟨2, ![850000, 1]⟩
abbrev S50000x1 : Shape := ⟨2, ![50000, 1]⟩
abbrev S850000x96 : Shape := ⟨2, ![850000, 96]⟩

abbrev nBuf : Space → Nat
  | .hbm => 126
  | .vmem => 0
  | .smem => 0
  | _ => 0

abbrev bufTy : (tb : Table) → Fin (tcTables nBuf tb) → BufTy
  | .hbm, ⟨0, _⟩ => ⟨S850000, .i32⟩
  | .hbm, ⟨1, _⟩ => ⟨S850000, .i32⟩
  | .hbm, ⟨2, _⟩ => ⟨S50000x96, .f32⟩
  | .hbm, ⟨3, _⟩ => ⟨S_, .f32⟩
  | .hbm, ⟨4, _⟩ => ⟨S850000, .f32⟩
  | .hbm, ⟨5, _⟩ => ⟨S_, .f32⟩
  | .hbm, ⟨6, _⟩ => ⟨S50000, .f32⟩
  | .hbm, ⟨7, _⟩ => ⟨S850000x1, .i32⟩
  | .hbm, ⟨8, _⟩ => ⟨S50000, .f32⟩
  | .hbm, ⟨9, _⟩ => ⟨S_, .f32⟩
  | .hbm, ⟨10, _⟩ => ⟨S50000, .f32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x1, .f32⟩
  | .hbm, ⟨33, _⟩ => ⟨S50000x1, .f32⟩
  | .hbm, ⟨34, _⟩ => ⟨S50000x96, .f32⟩
  | .hbm, ⟨35, _⟩ => ⟨S50000x96, .f32⟩
  | .hbm, ⟨36, _⟩ => ⟨S50000x96, .f32⟩
  | .hbm, ⟨37, _⟩ => ⟨S50000x96, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x96, .f32⟩
  | .hbm, ⟨47, _⟩ => ⟨S_, .f32⟩
  | .hbm, ⟨48, _⟩ => ⟨S50000x96, .f32⟩
  | .hbm, ⟨49, _⟩ => ⟨S850000x1, .i32⟩
  | .hbm, ⟨50, _⟩ => ⟨S50000x96, .f32⟩
  | .hbm, ⟨51, _⟩ => ⟨S50000x96, .f32⟩
  | .hbm, ⟨52, _⟩ => ⟨S50000x96, .f32⟩
  | .hbm, ⟨53, _⟩ => ⟨S50000x96, .f32⟩
  | .hbm, ⟨54, _⟩ => ⟨S50000x96, .f32⟩
  | .hbm, ⟨55, _⟩ => ⟨S_, .f32⟩
  | .hbm, ⟨56, _⟩ => ⟨S50000x96, .f32⟩
  | .hbm, ⟨57, _⟩ => ⟨S50000x96, .f32⟩
  | .hbm, ⟨58, _⟩ => ⟨S_, .f32⟩
  | .hbm, ⟨59, _⟩ => ⟨S50000x96, .f32⟩
  | .hbm, ⟨60, _⟩ => ⟨S50000x96, .f32⟩
  | .hbm, ⟨61, _⟩ => ⟨S50000x96, .f32⟩
  | .hbm, ⟨62, _⟩ => ⟨S_, .f32⟩
  | .hbm, ⟨63, _⟩ => ⟨S50000x96, .f32⟩
  | .hbm, ⟨64, _⟩ => ⟨S50000x96, .f32⟩
  | .hbm, ⟨65, _⟩ => ⟨S50000x96, .f32⟩
  | .hbm, ⟨66, _⟩ => ⟨S50000x96, .f32⟩
  | .hbm, ⟨67, _⟩ => ⟨S50000x96, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x96, .f32⟩
  | .hbm, ⟨77, _⟩ => ⟨S_, .f32⟩
  | .hbm, ⟨78, _⟩ => ⟨S50000x96, .f32⟩
  | .hbm, ⟨79, _⟩ => ⟨S850000x1, .i32⟩
  | .hbm, ⟨80, _⟩ => ⟨S50000x96, .f32⟩
  | .hbm, ⟨81, _⟩ => ⟨S50000x96, .f32⟩
  | .hbm, ⟨82, _⟩ => ⟨S50000x96, .f32⟩
  | .hbm, ⟨83, _⟩ => ⟨S50000x96, .f32⟩
  | .hbm, ⟨84, _⟩ => ⟨S50000x96, .f32⟩
  | .hbm, ⟨85, _⟩ => ⟨S_, .f32⟩
  | .hbm, ⟨86, _⟩ => ⟨S50000x96, .f32⟩
  | .hbm, ⟨87, _⟩ => ⟨S50000x96, .f32⟩
  | .hbm, ⟨88, _⟩ => ⟨S_, .f32⟩
  | .hbm, ⟨89, _⟩ => ⟨S50000x96, .f32⟩
  | .hbm, ⟨90, _⟩ => ⟨S50000x96, .f32⟩
  | .hbm, ⟨91, _⟩ => ⟨S50000x96, .f32⟩
  | .hbm, ⟨92, _⟩ => ⟨S_, .f32⟩
  | .hbm, ⟨93, _⟩ => ⟨S50000x96, .f32⟩
  | .hbm, ⟨94, _⟩ => ⟨S50000x96, .f32⟩
  | .hbm, ⟨95, _⟩ => ⟨S50000x96, .f32⟩
  | .hbm, ⟨96, _⟩ => ⟨S50000x96, .f32⟩
  | .hbm, ⟨97, _⟩ => ⟨S50000x96, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x96, .f32⟩
  | .hbm, ⟨107, _⟩ => ⟨S_, .f32⟩
  | .hbm, ⟨108, _⟩ => ⟨S50000x96, .f32⟩
  | .hbm, ⟨109, _⟩ => ⟨S850000x1, .i32⟩
  | .hbm, ⟨110, _⟩ => ⟨S50000x96, .f32⟩
  | .hbm, ⟨111, _⟩ => ⟨S50000x96, .f32⟩
  | .hbm, ⟨112, _⟩ => ⟨S50000x96, .f32⟩
  | .hbm, ⟨113, _⟩ => ⟨S50000x96, .f32⟩
  | .hbm, ⟨114, _⟩ => ⟨S50000x96, .f32⟩
  | .hbm, ⟨115, _⟩ => ⟨S_, .f32⟩
  | .hbm, ⟨116, _⟩ => ⟨S50000x96, .f32⟩
  | .hbm, ⟨117, _⟩ => ⟨S50000x96, .f32⟩
  | .hbm, ⟨118, _⟩ => ⟨S_, .f32⟩
  | .hbm, ⟨119, _⟩ => ⟨S50000x96, .f32⟩
  | .hbm, ⟨120, _⟩ => ⟨S50000x96, .f32⟩
  | .hbm, ⟨121, _⟩ => ⟨S50000x96, .f32⟩
  | .hbm, ⟨122, _⟩ => ⟨S_, .f32⟩
  | .hbm, ⟨123, _⟩ => ⟨S50000x96, .f32⟩
  | .hbm, ⟨124, _⟩ => ⟨S50000x96, .f32⟩
  | .hbm, ⟨125, _⟩ => ⟨S50000x96, .f32⟩
  | _, _ => ⟨S850000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_13 : Ref sig .tc := ⟨.hbm, 68, rfl⟩
abbrev main_v50 : Ref sig .tc := ⟨.hbm, 69, rfl⟩
abbrev main_v51 : Ref sig .tc := ⟨.hbm, 70, rfl⟩
abbrev main_c_14 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_cst_17 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_19 : Ref sig .tc := ⟨.hbm, 98, rfl⟩
abbrev main_v74 : Ref sig .tc := ⟨.hbm, 99, rfl⟩
abbrev main_v75 : Ref sig .tc := ⟨.hbm, 100, rfl⟩
abbrev main_c_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_21 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_22 : Ref sig .tc := ⟨.hbm, 115, rfl⟩
abbrev main_v88 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_24 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]

class Facts₀ : Prop where
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  scatter_S50000_S850000x1_S850000_n_0_0_1_wf : ScatterDims.WF S50000 S850000x1 S850000 [] [0] [0] 1
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

class Facts : Prop extends Facts₀ where

variable [Facts]
-- ==== Proof.LibRowScale.lean ====
/-
  Rows of a matrix scaled by a column, and the residual mix of a propagation step, on the extended reals.

  A column is an array of shape [a, 1]; "x scaled by the column s" is the array whose entry (p, q) is x(p, q) * s(p, 0).
  Both spellings of stretching the column to [a, b] — the vector unit's broadcast and the host's broadcast_in_dim
  along the axes (0, 1) — read at (p, q) the column's entry (p, 0); a scalar splat reads the scalar everywhere.
  The residual mix is one * (agg * post) + zero * hpre + one * hinit, entry by entry, with post a column; it is
  stated here with the scaling column already given as a product of two columns, so that the only law that
  separates "multiply by the product" from "multiply twice" is associativity of the product, which holds on the
  extended reals with no finiteness assumption (they are a commutative monoid with zero under multiplication).
-/
import Idealize.ShloMosaic.Lib.ValueIdx
import Idealize.ShloMosaic.Lib.Pipeline.Value
import Idealize.ShloMosaic.PureOps.Ideal

noncomputable section

namespace Cert.RowScale

open Idealize.ShloMosaic Idealize.ShloMosaic.ValueIdx

variable {α : Type}

/-- The vector unit's broadcast of a column [a, 1] to [a, b], read at (p, q), is the column's entry (p, 0). -/
theorem broadcastTo_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun d => ?_
  match d with
  | ⟨0, _⟩ =>
    show p.val = if a = 1 then 0 else p.val
    split
    · next h1 => have := p.isLt; omega
    · rfl
  | ⟨1, _⟩ =>
    show (0 : ℕ) = if (1 : ℕ) = 1 then 0 else q.val
    rw [if_pos rfl]

/-- The host's broadcast_in_dim of a column [a, 1] to [a, b] along the axes (0, 1), read at (p, q), is the
    column's entry (p, 0). -/
theorem broadcastInDim_col_apply {a b : ℕ} (h : (⟨2, ![a, 1]⟩ : Shape).BroadcastsInDim ⟨2, ![a, b]⟩ (![0, 1] : Fin 2 → Fin 2))
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun d => ?_
  match d with
  | ⟨0, _⟩ =>
    show p.val = if a = 1 then 0 else p.val
    split
    · next h1 => have := p.isLt; omega
    · rfl
  | ⟨1, _⟩ =>
    show (0 : ℕ) = if (1 : ℕ) = 1 then 0 else q.val
    rw [if_pos rfl]

/-- A scalar stretched to any shape by the host's broadcast_in_dim (no axis named) reads the scalar everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun d => d.elim0

/-- The row index (p, 0) of the column that scales entry i = (p, q) of an [a, b] array. -/
def rowOf {a b : ℕ} (i : (⟨2, ![a, b]⟩ : Shape).Idx) : (⟨2, ![a, 1]⟩ : Shape).Idx :=
  ix2 (⟨(i 0).val, idx2_lt0 i⟩ : Fin a) (0 : Fin 1)

theorem rowOf_ix2 {a b : ℕ} (p : Fin a) (q : Fin b) : rowOf (ix2 p q) = ix2 p (0 : Fin 1) := rfl

/-- x scaled row by row by the column s: entry (p, q) is x(p, q) * s(p, 0). -/
def scaleRows {a b : ℕ} (x : (⟨2, ![a, b]⟩ : Shape).Idx → EReal) (s : (⟨2, ![a, 1]⟩ : Shape).Idx → EReal) :
    (⟨2, ![a, b]⟩ : Shape).Idx → EReal :=
  fun i => x i * s (rowOf i)

/-- The residual mix of one propagation step, entry by entry: one * (agg * post) + zero * hpre + one * hinit,
    the scaling post a column, the three weights any extended reals. -/
def mixRows {a b : ℕ} (one zero : EReal) (agg : (⟨2, ![a, b]⟩ : Shape).Idx → EReal) (post : (⟨2, ![a, 1]⟩ : Shape).Idx → EReal)
    (hpre hinit : (⟨2, ![a, b]⟩ : Shape).Idx → EReal) : (⟨2, ![a, b]⟩ : Shape).Idx → EReal :=
  fun i => one * (agg i * post (rowOf i)) + zero * hpre i + one * hinit i

/-- An entry of the matrix times an entry of the column, read at indices that are the scaled array's index and its
    row index, is the scaled array's entry. -/
theorem scaleRows_of_eq {a b : ℕ} (x : (⟨2, ![a, b]⟩ : Shape).Idx → EReal) (s : (⟨2, ![a, 1]⟩ : Shape).Idx → EReal)
    (i0 i : (⟨2, ![a, b]⟩ : Shape).Idx) (i1 : (⟨2, ![a, 1]⟩ : Shape).Idx) (h0 : i0 = i) (h1 : i1 = rowOf i) :
    x i0 * s i1 = scaleRows x s i := by
  subst h0 h1; rfl

/-- The mix of entries read at indices that are the mixed array's index and its row index is the mixed array's entry. -/
theorem mixRows_of_eq {a b : ℕ} (one zero : EReal) (agg : (⟨2, ![a, b]⟩ : Shape).Idx → EReal) (post : (⟨2, ![a, 1]⟩ : Shape).Idx → EReal)
    (hpre hinit : (⟨2, ![a, b]⟩ : Shape).Idx → EReal) (i0 i2 i3 i : (⟨2, ![a, b]⟩ : Shape).Idx) (i1 : (⟨2, ![a, 1]⟩ : Shape).Idx)
    (h0 : i0 = i) (h1 : i1 = rowOf i) (h2 : i2 = i) (h3 : i3 = i) :
    one * (agg i0 * post i1) + zero * hpre i2 + one * hinit i3 = mixRows one zero agg post hpre hinit i := by
  subst h0 h1 h2 h3; rfl

/-- The scaled array of equal operands. -/
theorem scaleRows_congr {a b : ℕ} {x x' : (⟨2, ![a, b]⟩ : Shape).Idx → EReal} {s s' : (⟨2, ![a, 1]⟩ : Shape).Idx → EReal}
    (hx : x = x') (hs : s = s') : scaleRows x s = scaleRows x' s' := by
  subst hx hs; rfl

/-- The mix of equal operands. -/
theorem mixRows_congr {a b : ℕ} (one zero : EReal) {agg agg' : (⟨2, ![a, b]⟩ : Shape).Idx → EReal}
    {post post' : (⟨2, ![a, 1]⟩ : Shape).Idx → EReal} {hpre hpre' hinit hinit' : (⟨2, ![a, b]⟩ : Shape).Idx → EReal}
    (h1 : agg = agg') (h2 : post = post') (h3 : hpre = hpre') (h4 : hinit = hinit') :
    mixRows one zero agg post hpre hinit = mixRows one zero agg' post' hpre' hinit' := by
  subst h1 h2 h3 h4; rfl

/-- Scaling by a column that is itself the entrywise product of two columns is scaling by the one and then by
    the other: associativity of the product on the extended reals, no finiteness needed. -/
theorem mul_colProd (x u v : EReal) : x * (u * v) = x * u * v := (mul_assoc x u v).symm

end Cert.RowScale

end
-- ==== Proof.Payload.lean ====
/-
  What each kernel body stores, read at one entry of its block (at the ideal instance, where a float is an extended
  real and the operations are the exact ones). The row-scaling body stores x * s with the column s stretched along
  the rows; the mixing body stores one * (agg * post) + zero * hpre + one * hinit with the column post stretched
  along the rows. The shape casts in the bodies are between equal shapes and are the identity.
-/
import proofs.«100235_j40467181863409_1_alg».proof.Proof.Gen.KernelIdeal.Skeleton
import proofs.«100235_j40467181863409_1_alg».proof.Proof.LibRowScale

noncomputable section

namespace Cert.KernelIdeal.Body

open Idealize.ShloMosaic Idealize.ShloMosaic.ValueIdx Cert.KernelIdeal Cert.KernelIdeal.Gen Cert.RowScale
open Cert.KernelIdeal.Facts₀ Cert.KernelIdeal.Facts

/-- The weight 1.0 of the mix, as the extended real its word denotes (the same word on both programs' sides: never evaluated). -/
abbrev wOne : EReal := (Scalar.ofBits .f32 0x3F800000#32 : Ideal .f32)
/-- The weight 0.0 of the mix, as the extended real its word denotes. -/
abbrev wZero : EReal := (Scalar.ofBits .f32 0x00000000#32 : Ideal .f32)

/-- The stored value of the row-scaling body of pallas_call 0 at entry (p, q) of its block: the block of the
    matrix at (p, q) times the block of the column at (p, 0). -/
theorem k0_pay1_apply (x : Vec Ideal S5000x96 .f32) (s : Vec Ideal S5000x1 .f32) (p : Fin 5000) (q : Fin 96) :
    k0_pay1 x s (ix2 p q) = x (ix2 p q) * s (ix2 p (0 : Fin 1)) := by
  unfold k0_pay1
  simp only [shapeCast_self]
  show x (ix2 p q) * broadcastTo S5000x96 s Facts₀.broadcasts_S5000x1_S5000x96 (ix2 p q) = _
  rw [broadcastTo_col_apply]

/-- The stored value of the row-scaling body of pallas_call 1 at entry (p, q) of its block: the block of the
    matrix at (p, q) times the block of the column at (p, 0). -/
theorem k1_pay1_apply (x : Vec Ideal S5000x96 .f32) (s : Vec Ideal S5000x1 .f32) (p : Fin 5000) (q : Fin 96) :
    k1_pay1 x s (ix2 p q) = x (ix2 p q) * s (ix2 p (0 : Fin 1)) := by
  unfold k1_pay1
  simp only [shapeCast_self]
  show x (ix2 p q) * broadcastTo S5000x96 s Facts₀.broadcasts_S5000x1_S5000x96 (ix2 p q) = _
  rw [broadcastTo_col_apply]

/-- The stored value of the row-scaling body of pallas_call 3 at entry (p, q) of its block: the block of the
    matrix at (p, q) times the block of the column at (p, 0). -/
theorem k3_pay1_apply (x : Vec Ideal S5000x96 .f32) (s : Vec Ideal S5000x1 .f32) (p : Fin 5000) (q : Fin 96) :
    k3_pay1 x s (ix2 p q) = x (ix2 p q) * s (ix2 p (0 : Fin 1)) := by
  unfold k3_pay1
  simp only [shapeCast_self]
  show x (ix2 p q) * broadcastTo S5000x96 s Facts₀.broadcasts_S5000x1_S5000x96 (ix2 p q) = _
  rw [broadcastTo_col_apply]

/-- The stored value of the row-scaling body of pallas_call 5 at entry (p, q) of its block: the block of the
    matrix at (p, q) times the block of the column at (p, 0). -/
theorem k5_pay1_apply (x : Vec Ideal S5000x96 .f32) (s : Vec Ideal S5000x1 .f32) (p : Fin 5000) (q : Fin 96) :
    k5_pay1 x s (ix2 p q) = x (ix2 p q) * s (ix2 p (0 : Fin 1)) := by
  unfold k5_pay1
  simp only [shapeCast_self]
  show x (ix2 p q) * broadcastTo S5000x96 s Facts₀.broadcasts_S5000x1_S5000x96 (ix2 p q) = _
  rw [broadcastTo_col_apply]

/-- The stored value of the mixing body of pallas_call 2 at entry (p, q) of its block:
    one * (agg * post) + zero * hpre + one * hinit, the column post read at (p, 0). -/
theorem k2_pay1_apply (agg : Vec Ideal S5000x96 .f32) (post : Vec Ideal S5000x1 .f32) (hpre hinit : Vec Ideal S5000x96 .f32)
    (p : Fin 5000) (q : Fin 96) :
    k2_pay1 agg post hpre hinit (ix2 p q)
      = wOne * (agg (ix2 p q) * post (ix2 p (0 : Fin 1))) + wZero * hpre (ix2 p q) + wOne * hinit (ix2 p q) := by
  unfold k2_pay1
  simp only [shapeCast_self]
  show wOne * (agg (ix2 p q) * broadcastTo S5000x96 post Facts₀.broadcasts_S5000x1_S5000x96 (ix2 p q)) + wZero * hpre (ix2 p q)
      + wOne * hinit (ix2 p q) = _
  rw [broadcastTo_col_apply]

/-- The stored value of the mixing body of pallas_call 4 at entry (p, q) of its block:
    one * (agg * post) + zero * hpre + one * hinit, the column post read at (p, 0). -/
theorem k4_pay1_apply (agg : Vec Ideal S5000x96 .f32) (post : Vec Ideal S5000x1 .f32) (hpre hinit : Vec Ideal S5000x96 .f32)
    (p : Fin 5000) (q : Fin 96) :
    k4_pay1 agg post hpre hinit (ix2 p q)
      = wOne * (agg (ix2 p q) * post (ix2 p (0 : Fin 1))) + wZero * hpre (ix2 p q) + wOne * hinit (ix2 p q) := by
  unfold k4_pay1
  simp only [shapeCast_self]
  show wOne * (agg (ix2 p q) * broadcastTo S5000x96 post Facts₀.broadcasts_S5000x1_S5000x96 (ix2 p q)) + wZero * hpre (ix2 p q)
      + wOne * hinit (ix2 p q) = _
  rw [broadcastTo_col_apply]

/-- The stored value of the mixing body of pallas_call 6 at entry (p, q) of its block:
    one * (agg * post) + zero * hpre + one * hinit, the column post read at (p, 0). -/
theorem k6_pay1_apply (agg : Vec Ideal S5000x96 .f32) (post : Vec Ideal S5000x1 .f32) (hpre hinit : Vec Ideal S5000x96 .f32)
    (p : Fin 5000) (q : Fin 96) :
    k6_pay1 agg post hpre hinit (ix2 p q)
      = wOne * (agg (ix2 p q) * post (ix2 p (0 : Fin 1))) + wZero * hpre (ix2 p q) + wOne * hinit (ix2 p q) := by
  unfold k6_pay1
  simp only [shapeCast_self]
  show wOne * (agg (ix2 p q) * broadcastTo S5000x96 post Facts₀.broadcasts_S5000x1_S5000x96 (ix2 p q)) + wZero * hpre (ix2 p q)
      + wOne * hinit (ix2 p q) = _
  rw [broadcastTo_col_apply]

end Cert.KernelIdeal.Body

end
-- ==== Proof.RegionOrigin.lean ====
/-
  The body's accesses start at the origin of their block: the offsets (0, 0) as a constant function.
-/
import proofs.«100235_j40467181863409_1_alg».proof.Proof.Payload

namespace Cert.KernelIdeal.Region

/-- The body's accesses start at the origin of the block. -/
theorem origin : (![0, 0] : Fin 2 → Nat) = fun _ => 0 := funext fun a => by fin_cases a <;> rfl

end Cert.KernelIdeal.Region
-- ==== Proof.RegionScale.lean ====
/-
  The row-scaling pallas_calls, each read as ONE whole-array function of the arrays it finds at entry.

  A call runs over ten grid points; point t stages rows 5000 t … 5000 t + 4999 of the matrix and of the scaling
  column and writes back the same rows of the result. Entry (p, q) of what point t writes is the matrix at
  (5000 t + p, q) times the column at (5000 t + p, 0): every block is the restriction of the one function
  "x scaled row by row by s", and the ten blocks tile the result, so the result array IS that function.
-/
import proofs.«100235_j40467181863409_1_alg».proof.Proof.Gen.KernelIdeal.Frame
import proofs.«100235_j40467181863409_1_alg».proof.Proof.Payload
import proofs.«100235_j40467181863409_1_alg».proof.Proof.RegionOrigin
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.RowScale Cert.KernelIdeal.Body
open Idealize.ShloMosaic.Pipeline (Dat)

-- the buffer contents a pallas_call finds when it is entered: every statement below is about any such contents
variable (V : (c : Dev nD) → (b : Ref sig .tc) → Buf (Elt Ideal) ((c : Thread nD τ).loc b))

/-! ## pallas_call 0: rows of `main_arg2` scaled by the column `main_v19`, written to `main_v23` -/

/-- The index maps over the ten grid points: point t stages row block t of the matrix and of the column, and
    writes row block t of the result; the column axis is never cut. -/
theorem blocks0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is row block t of the whole scaled matrix: entry (p, q) of the block is entry
    (5000 t + p, q) of the matrix times entry (5000 t + p, 0) of the column. -/
theorem flushed0 (c : Dev nD) (t : Fin cfg0.N) :
    (dat0 V c).flushed 2 t = ((cfg0.win 2).blk t).view.read (Elt Ideal)
      (scaleRows (a := 50000) (b := 96) (V c main_arg2 : S50000x96.Idx → EReal) (V c main_v19 : S50000x1.Idx → EReal)) := by
  show (cfg0.win 2).cut (grid0.coords t) ((dat0 V c).after 2 t) = _
  rw [after0_2]
  unfold out0_2
  rw [View.canon_unit_zero origin]
  simp only [View.ld_unit_zero (S := S5000x96) origin, View.ld_unit_zero (S := S5000x1) origin]
  obtain ⟨e00, e01, e10, e11, e20, e21⟩ := blocks0 t
  funext j
  obtain ⟨p, q, rfl⟩ : ∃ (p : Fin 5000) (q : Fin 96), j = ix2 p q := ⟨j 0, j 1, eq_ix2 j⟩
  show k0_pay1 (iblk0 V c 0 t) (iblk0 V c 1 t) (ix2 p q)
    = scaleRows (a := 50000) (b := 96) (V c main_arg2 : S50000x96.Idx → EReal) (V c main_v19 : S50000x1.Idx → EReal) (((cfg0.win 2).blk t).view.emb (ix2 p q))
  refine (k0_pay1_apply _ _ p q).trans ?_
  have h0 : ((cfg0.win 0).blk t).view.emb (ix2 p q) = ((cfg0.win 2).blk t).view.emb (ix2 p q) := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 96 + 1 * q.val = win0_2.index t (1 : Fin 2) * 96 + 1 * q.val; omega
  have h1 : ((cfg0.win 1).blk t).view.emb (ix2 p (0 : Fin 1)) = rowOf (((cfg0.win 2).blk t).view.emb (ix2 p q)) := by
    funext a; apply Fin.ext
    match a with
    | ⟨0, _⟩ => show win0_1.index t (0 : Fin 2) * 5000 + 1 * p.val = win0_2.index t (0 : Fin 2) * 5000 + 1 * p.val; omega
    | ⟨1, _⟩ => show win0_1.index t (1 : Fin 2) * 1 + 1 * 0 = 0; omega
  exact scaleRows_of_eq (a := 50000) (b := 96) (V c main_arg2) (V c main_v19) (((cfg0.win 0).blk t).view.emb (ix2 p q))
    (((cfg0.win 2).blk t).view.emb (ix2 p q)) (((cfg0.win 1).blk t).view.emb (ix2 p (0 : Fin 1))) h0 h1

/-- An entry of the result array lies in point t's block iff each coordinate lies in the block's range. -/
theorem mem_block0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v23).slice (win0_2.rect t)).set ↔ _
  rw [View.set_slice_whole, Rect.mem_set_unit]
  exact Iff.rfl

/-- The ten row blocks tile the result: row r is in the block of point r / 5000. -/
theorem tiles0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hN : grid0.N = 10 := N_0
  have ht : (i 0).val / 5000 < grid0.N := by omega
  obtain ⟨-, -, -, -, e20, e21⟩ := blocks0 ⟨(i 0).val / 5000, ht⟩
  refine ⟨⟨(i 0).val / 5000, ht⟩, flush0_2 _, ?_⟩
  rw [mem_block0]
  have e20' : win0_2.index ⟨(i 0).val / 5000, ht⟩ (0 : Fin 2) = (i 0).val / 5000 := e20
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 96 ≤ (i 1).val ∧ (i 1).val < win0_2.index ⟨(i 0).val / 5000, ht⟩ (1 : Fin 2) * 96 + 96; omega

/-- After pallas_call 0 the array `main_v23` holds the rows of `main_arg2` scaled by the column `main_v19`, as the call found them. -/
theorem result0 (c : Dev nD) :
    (dat0 V c).arrAt 2 cfg0.N
      = scaleRows (a := 50000) (b := 96) (V c main_arg2 : S50000x96.Idx → EReal) (V c main_v19 : S50000x1.Idx → EReal) :=
  (dat0 V c).arrAt_eq_of_cover 2 _ (fun t _ => flushed0 V c t) (tiles0)

/-! ## pallas_call 1: rows of `main_arg2` scaled by the column `main_v21`, written to `main_v24` -/

/-- The index maps over the ten grid points: point t stages row block t of the matrix and of the column, and
    writes row block t of the result; the column axis is never cut. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is row block t of the whole scaled matrix: entry (p, q) of the block is entry
    (5000 t + p, q) of the matrix times entry (5000 t + p, 0) of the column. -/
theorem flushed1 (c : Dev nD) (t : Fin cfg1.N) :
    (dat1 V c).flushed 2 t = ((cfg1.win 2).blk t).view.read (Elt Ideal)
      (scaleRows (a := 50000) (b := 96) (V c main_arg2 : S50000x96.Idx → EReal) (V c main_v21 : S50000x1.Idx → EReal)) := by
  show (cfg1.win 2).cut (grid1.coords t) ((dat1 V c).after 2 t) = _
  rw [after1_2]
  unfold out1_2
  rw [View.canon_unit_zero origin]
  simp only [View.ld_unit_zero (S := S5000x96) origin, View.ld_unit_zero (S := S5000x1) origin]
  obtain ⟨e00, e01, e10, e11, e20, e21⟩ := blocks1 t
  funext j
  obtain ⟨p, q, rfl⟩ : ∃ (p : Fin 5000) (q : Fin 96), j = ix2 p q := ⟨j 0, j 1, eq_ix2 j⟩
  show k1_pay1 (iblk1 V c 0 t) (iblk1 V c 1 t) (ix2 p q)
    = scaleRows (a := 50000) (b := 96) (V c main_arg2 : S50000x96.Idx → EReal) (V c main_v21 : S50000x1.Idx → EReal) (((cfg1.win 2).blk t).view.emb (ix2 p q))
  refine (k1_pay1_apply _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 96 + 1 * q.val = win1_2.index t (1 : Fin 2) * 96 + 1 * q.val; omega
  have h1 : ((cfg1.win 1).blk t).view.emb (ix2 p (0 : Fin 1)) = rowOf (((cfg1.win 2).blk t).view.emb (ix2 p q)) := by
    funext a; apply Fin.ext
    match a with
    | ⟨0, _⟩ => show win1_1.index t (0 : Fin 2) * 5000 + 1 * p.val = win1_2.index t (0 : Fin 2) * 5000 + 1 * p.val; omega
    | ⟨1, _⟩ => show win1_1.index t (1 : Fin 2) * 1 + 1 * 0 = 0; omega
  exact scaleRows_of_eq (a := 50000) (b := 96) (V c main_arg2) (V c main_v21) (((cfg1.win 0).blk t).view.emb (ix2 p q))
    (((cfg1.win 2).blk t).view.emb (ix2 p q)) (((cfg1.win 1).blk t).view.emb (ix2 p (0 : Fin 1))) h0 h1

/-- An entry of the result array lies in point t's block iff each coordinate lies in the block's range. -/
theorem mem_block1 (t : Fin cfg1.N) (i : S50000x96.Idx) :
    i ∈ ((cfg1.win 2).blk t).view.set ↔ ∀ a : Fin 2, win1_2.index t a * S5000x96.size a ≤ (i a).val ∧ (i a).val < win1_2.index t a * S5000x96.size a + S5000x96.size a := by
  show i ∈ ((View.whole main_v24).slice (win1_2.rect t)).set ↔ _
  rw [View.set_slice_whole, Rect.mem_set_unit]
  exact Iff.rfl

/-- The ten row blocks tile the result: row r is in the block of point r / 5000. -/
theorem tiles1 (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  have hN : grid1.N = 10 := N_1
  have ht : (i 0).val / 5000 < grid1.N := by omega
  obtain ⟨-, -, -, -, e20, e21⟩ := blocks1 ⟨(i 0).val / 5000, ht⟩
  refine ⟨⟨(i 0).val / 5000, ht⟩, flush1_2 _, ?_⟩
  rw [mem_block1]
  have e20' : win1_2.index ⟨(i 0).val / 5000, ht⟩ (0 : Fin 2) = (i 0).val / 5000 := e20
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 96 ≤ (i 1).val ∧ (i 1).val < win1_2.index ⟨(i 0).val / 5000, ht⟩ (1 : Fin 2) * 96 + 96; omega

/-- After pallas_call 1 the array `main_v24` holds the rows of `main_arg2` scaled by the column `main_v21`, as the call found them. -/
theorem result1 (c : Dev nD) :
    (dat1 V c).arrAt 2 cfg1.N
      = scaleRows (a := 50000) (b := 96) (V c main_arg2 : S50000x96.Idx → EReal) (V c main_v21 : S50000x1.Idx → EReal) :=
  (dat1 V c).arrAt_eq_of_cover 2 _ (fun t _ => flushed1 V c t) (tiles1)

/-! ## pallas_call 3: rows of `main_v35` scaled by the column `main_v21`, written to `main_v36` -/

/-- The index maps over the ten grid points: point t stages row block t of the matrix and of the column, and
    writes row block t of the result; the column axis is never cut. -/
theorem blocks3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is row block t of the whole scaled matrix: entry (p, q) of the block is entry
    (5000 t + p, q) of the matrix times entry (5000 t + p, 0) of the column. -/
theorem flushed3 (c : Dev nD) (t : Fin cfg3.N) :
    (dat3 V c).flushed 2 t = ((cfg3.win 2).blk t).view.read (Elt Ideal)
      (scaleRows (a := 50000) (b := 96) (V c main_v35 : S50000x96.Idx → EReal) (V c main_v21 : S50000x1.Idx → EReal)) := by
  show (cfg3.win 2).cut (grid3.coords t) ((dat3 V c).after 2 t) = _
  rw [after3_2]
  unfold out3_2
  rw [View.canon_unit_zero origin]
  simp only [View.ld_unit_zero (S := S5000x96) origin, View.ld_unit_zero (S := S5000x1) origin]
  obtain ⟨e00, e01, e10, e11, e20, e21⟩ := blocks3 t
  funext j
  obtain ⟨p, q, rfl⟩ : ∃ (p : Fin 5000) (q : Fin 96), j = ix2 p q := ⟨j 0, j 1, eq_ix2 j⟩
  show k3_pay1 (iblk3 V c 0 t) (iblk3 V c 1 t) (ix2 p q)
    = scaleRows (a := 50000) (b := 96) (V c main_v35 : S50000x96.Idx → EReal) (V c main_v21 : S50000x1.Idx → EReal) (((cfg3.win 2).blk t).view.emb (ix2 p q))
  refine (k3_pay1_apply _ _ p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 96 + 1 * q.val = win3_2.index t (1 : Fin 2) * 96 + 1 * q.val; omega
  have h1 : ((cfg3.win 1).blk t).view.emb (ix2 p (0 : Fin 1)) = rowOf (((cfg3.win 2).blk t).view.emb (ix2 p q)) := by
    funext a; apply Fin.ext
    match a with
    | ⟨0, _⟩ => show win3_1.index t (0 : Fin 2) * 5000 + 1 * p.val = win3_2.index t (0 : Fin 2) * 5000 + 1 * p.val; omega
    | ⟨1, _⟩ => show win3_1.index t (1 : Fin 2) * 1 + 1 * 0 = 0; omega
  exact scaleRows_of_eq (a := 50000) (b := 96) (V c main_v35) (V c main_v21) (((cfg3.win 0).blk t).view.emb (ix2 p q))
    (((cfg3.win 2).blk t).view.emb (ix2 p q)) (((cfg3.win 1).blk t).view.emb (ix2 p (0 : Fin 1))) h0 h1

/-- An entry of the result array lies in point t's block iff each coordinate lies in the block's range. -/
theorem mem_block3 (t : Fin cfg3.N) (i : S50000x96.Idx) :
    i ∈ ((cfg3.win 2).blk t).view.set ↔ ∀ a : Fin 2, win3_2.index t a * S5000x96.size a ≤ (i a).val ∧ (i a).val < win3_2.index t a * S5000x96.size a + S5000x96.size a := by
  show i ∈ ((View.whole main_v36).slice (win3_2.rect t)).set ↔ _
  rw [View.set_slice_whole, Rect.mem_set_unit]
  exact Iff.rfl

/-- The ten row blocks tile the result: row r is in the block of point r / 5000. -/
theorem tiles3 (i : S50000x96.Idx) : ∃ t : Fin cfg3.N, (cfg3.win 2).flush t = true ∧ i ∈ ((cfg3.win 2).blk t).view.set := by
  have hi0 : (i 0).val < 50000 := (i 0).isLt
  have hi1 : (i 1).val < 96 := (i 1).isLt
  have hN : grid3.N = 10 := N_3
  have ht : (i 0).val / 5000 < grid3.N := by omega
  obtain ⟨-, -, -, -, e20, e21⟩ := blocks3 ⟨(i 0).val / 5000, ht⟩
  refine ⟨⟨(i 0).val / 5000, ht⟩, flush3_2 _, ?_⟩
  rw [mem_block3]
  have e20' : win3_2.index ⟨(i 0).val / 5000, ht⟩ (0 : Fin 2) = (i 0).val / 5000 := e20
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; omega
  | ⟨1, _⟩ => show win3_2.index ⟨(i 0).val / 5000, ht⟩ (1 : Fin 2) * 96 ≤ (i 1).val ∧ (i 1).val < win3_2.index ⟨(i 0).val / 5000, ht⟩ (1 : Fin 2) * 96 + 96; omega

/-- After pallas_call 3 the array `main_v36` holds the rows of `main_v35` scaled by the column `main_v21`, as the call found them. -/
theorem result3 (c : Dev nD) :
    (dat3 V c).arrAt 2 cfg3.N
      = scaleRows (a := 50000) (b := 96) (V c main_v35 : S50000x96.Idx → EReal) (V c main_v21 : S50000x1.Idx → EReal) :=
  (dat3 V c).arrAt_eq_of_cover 2 _ (fun t _ => flushed3 V c t) (tiles3)

/-! ## pallas_call 5: rows of `main_v47` scaled by the column `main_v21`, written to `main_v48` -/

/-- The index maps over the ten grid points: point t stages row block t of the matrix and of the column, and
    writes row block t of the result; the column axis is never cut. -/
theorem blocks5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is row block t of the whole scaled matrix: entry (p, q) of the block is entry
    (5000 t + p, q) of the matrix times entry (5000 t + p, 0) of the column. -/
theorem flushed5 (c : Dev nD) (t : Fin cfg5.N) :
    (dat5 V c).flushed 2 t = ((cfg5.win 2).blk t).view.read (Elt Ideal)
      (scaleRows (a := 50000) (b := 96) (V c main_v47 : S50000x96.Idx → EReal) (V c main_v21 : S50000x1.Idx → EReal)) := by
  show (cfg5.win 2).cut (grid5.coords t) ((dat5 V c).after 2 t) = _
  rw [after5_2]
  unfold out5_2
  rw [View.canon_unit_zero origin]
  simp only [View.ld_unit_zero (S := S5000x96) origin, View.ld_unit_zero (S := S5000x1) origin]
  obtain ⟨e00, e01, e10, e11, e20, e21⟩ := blocks5 t
  funext j
  obtain ⟨p, q, rfl⟩ : ∃ (p : Fin 5000) (q : Fin 96), j = ix2 p q := ⟨j 0, j 1, eq_ix2 j⟩
  show k5_pay1 (iblk5 V c 0 t) (iblk5 V c 1 t) (ix2 p q)
    = scaleRows (a := 50000) (b := 96) (V c main_v47 : S50000x96.Idx → EReal) (V c main_v21 : S50000x1.Idx → EReal) (((cfg5.win 2).blk t).view.emb (ix2 p q))
  refine (k5_pay1_apply _ _ p q).trans ?_
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 96 + 1 * q.val = win5_2.index t (1 : Fin 2) * 96 + 1 * q.val; omega
  have h1 : ((cfg5.win 1).blk t).view.emb (ix2 p (0 : Fin 1)) = rowOf (((cfg5.win 2).blk t).view.emb (ix2 p q)) := by
    funext a; apply Fin.ext
    match a with
    | ⟨0, _⟩ => show win5_1.index t (0 : Fin 2) * 5000 + 1 * p.val = win5_2.index t (0 : Fin 2) * 5000 + 1 * p.val; omega
    | ⟨1, _⟩ => show win5_1.index t (1 : Fin 2) * 1 + 1 * 0 = 0; omega
  exact scaleRows_of_eq (a := 50000) (b := 96) (V c main_v47) (V c main_v21) (((cfg5.win 0).blk t).view.emb (ix2 p q))
    (((cfg5.win 2).blk t).view.emb (ix2 p q)) (((cfg5.win 1).blk t).view.emb (ix2 p (0 : Fin 1))) h0 h1

/-- An entry of the result array lies in point t's block iff each coordinate lies in the block's range. -/
theorem mem_block5 (t : Fin cfg5.N) (i : S50000x96.Idx) :
    i ∈ ((cfg5.win 2).blk t).view.set ↔ ∀ a : Fin 2, win5_2.index t a * S5000x96.size a ≤ (i a).val ∧ (i a).val < win5_2.index t a * S5000x96.size a + S5000x96.size a := by
  show i ∈ ((View.whole main_v48).slice (win5_2.rect t)).set ↔ _
  rw [View.set_slice_whole, Rect.mem_set_unit]
  exact Iff.rfl

/-- The ten row blocks tile the result: row r is in the block of point r / 5000. -/
theorem tiles5 (i : S50000x96.Idx) : ∃ t : Fin cfg5.N, (cfg5.win 2).flush t = true ∧ i ∈ ((cfg5.win 2).blk t).view.set := by
  have hi0 : (i 0).val < 50000 := (i 0).isLt
  have hi1 : (i 1).val < 96 := (i 1).isLt
  have hN : grid5.N = 10 := N_5
  have ht : (i 0).val / 5000 < grid5.N := by omega
  obtain ⟨-, -, -, -, e20, e21⟩ := blocks5 ⟨(i 0).val / 5000, ht⟩
  refine ⟨⟨(i 0).val / 5000, ht⟩, flush5_2 _, ?_⟩
  rw [mem_block5]
  have e20' : win5_2.index ⟨(i 0).val / 5000, ht⟩ (0 : Fin 2) = (i 0).val / 5000 := e20
  intro a
  match a with
  | ⟨0, _⟩ => show win5_2.index ⟨(i 0).val / 5000, ht⟩ (0 : Fin 2) * 5000 ≤ (i 0).val ∧ (i 0).val < win5_2.index ⟨(i 0).val / 5000, ht⟩ (0 : Fin 2) * 5000 + 5000; omega
  | ⟨1, _⟩ => show win5_2.index ⟨(i 0).val / 5000, ht⟩ (1 : Fin 2) * 96 ≤ (i 1).val ∧ (i 1).val < win5_2.index ⟨(i 0).val / 5000, ht⟩ (1 : Fin 2) * 96 + 96; omega

/-- After pallas_call 5 the array `main_v48` holds the rows of `main_v47` scaled by the column `main_v21`, as the call found them. -/
theorem result5 (c : Dev nD) :
    (dat5 V c).arrAt 2 cfg5.N
      = scaleRows (a := 50000) (b := 96) (V c main_v47 : S50000x96.Idx → EReal) (V c main_v21 : S50000x1.Idx → EReal) :=
  (dat5 V c).arrAt_eq_of_cover 2 _ (fun t _ => flushed5 V c t) (tiles5)

end Cert.KernelIdeal.Region

end
-- ==== Proof.RegionMix.lean ====
/-
  The mixing pallas_calls, each read as ONE whole-array function of the arrays it finds at entry.

  A call runs over ten grid points; point t stages rows 5000 t … 5000 t + 4999 of the aggregated matrix, of the
  scaling column, of the previous step's matrix and of the initial term, and writes back the same rows of the
  result. Entry (p, q) of what point t writes is one * (agg * post) + zero * hpre + one * hinit read at row
  5000 t + p: every block is the restriction of the one function "the residual mix", and the ten blocks tile the
  result, so the result array IS that function.
-/
import proofs.«100235_j40467181863409_1_alg».proof.Proof.Gen.KernelIdeal.Frame
import proofs.«100235_j40467181863409_1_alg».proof.Proof.Payload
import proofs.«100235_j40467181863409_1_alg».proof.Proof.RegionOrigin
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx Cert.RowScale Cert.KernelIdeal.Body
open Idealize.ShloMosaic.Pipeline (Dat)

-- the buffer contents a pallas_call finds when it is entered: every statement below is about any such contents
variable (V : (c : Dev nD) → (b : Ref sig .tc) → Buf (Elt Ideal) ((c : Thread nD τ).loc b))

/-! ## pallas_call 2: the residual mix of `main_v34` (scaled by the column `main_v22`), `main_arg2` and `main_v23`, written to `main_v35` -/

/-- The index maps over the ten grid points: point t stages row block t of each operand and writes row block t
    of the result; the column axis is never cut. -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back is row block t of the whole mixed matrix. -/
theorem flushed2 (c : Dev nD) (t : Fin cfg2.N) :
    (dat2 V c).flushed 4 t = ((cfg2.win 4).blk t).view.read (Elt Ideal)
      (mixRows (a := 50000) (b := 96) wOne wZero (V c main_v34 : S50000x96.Idx → EReal) (V c main_v22 : S50000x1.Idx → EReal)
        (V c main_arg2 : S50000x96.Idx → EReal) (V c main_v23 : S50000x96.Idx → EReal)) := by
  show (cfg2.win 4).cut (grid2.coords t) ((dat2 V c).after 4 t) = _
  rw [after2_4]
  unfold out2_4
  rw [View.canon_unit_zero origin]
  simp only [View.ld_unit_zero (S := S5000x96) origin, View.ld_unit_zero (S := S5000x1) origin]
  obtain ⟨e00, e01, e10, e11, e20, e21, e30, e31, e40, e41⟩ := blocks2 t
  funext j
  obtain ⟨p, q, rfl⟩ : ∃ (p : Fin 5000) (q : Fin 96), j = ix2 p q := ⟨j 0, j 1, eq_ix2 j⟩
  show k2_pay1 (iblk2 V c 0 t) (iblk2 V c 1 t) (iblk2 V c 2 t) (iblk2 V c 3 t) (ix2 p q)
    = mixRows (a := 50000) (b := 96) wOne wZero (V c main_v34 : S50000x96.Idx → EReal) (V c main_v22 : S50000x1.Idx → EReal)
        (V c main_arg2 : S50000x96.Idx → EReal) (V c main_v23 : S50000x96.Idx → EReal) (((cfg2.win 4).blk t).view.emb (ix2 p q))
  refine (k2_pay1_apply _ _ _ _ p q).trans ?_
  have h0 : ((cfg2.win 0).blk t).view.emb (ix2 p q) = ((cfg2.win 4).blk t).view.emb (ix2 p q) := by
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 96 + 1 * q.val = win2_4.index t (1 : Fin 2) * 96 + 1 * q.val; omega
  have h1 : ((cfg2.win 1).blk t).view.emb (ix2 p (0 : Fin 1)) = rowOf (((cfg2.win 4).blk t).view.emb (ix2 p q)) := by
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 1 + 1 * 0 = 0; omega
  have h2 : ((cfg2.win 2).blk t).view.emb (ix2 p q) = ((cfg2.win 4).blk t).view.emb (ix2 p q) := by
    funext a; apply Fin.ext
    match a with
    | ⟨0, _⟩ => show win2_2.index t (0 : Fin 2) * 5000 + 1 * p.val = win2_4.index t (0 : Fin 2) * 5000 + 1 * p.val; omega
    | ⟨1, _⟩ => show win2_2.index t (1 : Fin 2) * 96 + 1 * q.val = win2_4.index t (1 : Fin 2) * 96 + 1 * q.val; omega
  have h3 : ((cfg2.win 3).blk t).view.emb (ix2 p q) = ((cfg2.win 4).blk t).view.emb (ix2 p q) := by
    funext a; apply Fin.ext
    match a with
    | ⟨0, _⟩ => show win2_3.index t (0 : Fin 2) * 5000 + 1 * p.val = win2_4.index t (0 : Fin 2) * 5000 + 1 * p.val; omega
    | ⟨1, _⟩ => show win2_3.index t (1 : Fin 2) * 96 + 1 * q.val = win2_4.index t (1 : Fin 2) * 96 + 1 * q.val; omega
  exact mixRows_of_eq (a := 50000) (b := 96) wOne wZero (V c main_v34) (V c main_v22) (V c main_arg2) (V c main_v23)
    (((cfg2.win 0).blk t).view.emb (ix2 p q)) (((cfg2.win 2).blk t).view.emb (ix2 p q)) (((cfg2.win 3).blk t).view.emb (ix2 p q))
    (((cfg2.win 4).blk t).view.emb (ix2 p q)) (((cfg2.win 1).blk t).view.emb (ix2 p (0 : Fin 1))) h0 h1 h2 h3

/-- An entry of the result array lies in point t's block iff each coordinate lies in the block's range. -/
theorem mem_block2 (t : Fin cfg2.N) (i : S50000x96.Idx) :
    i ∈ ((cfg2.win 4).blk t).view.set ↔ ∀ a : Fin 2, win2_4.index t a * S5000x96.size a ≤ (i a).val ∧ (i a).val < win2_4.index t a * S5000x96.size a + S5000x96.size a := by
  show i ∈ ((View.whole main_v35).slice (win2_4.rect t)).set ↔ _
  rw [View.set_slice_whole, Rect.mem_set_unit]
  exact Iff.rfl

/-- The ten row blocks tile the result: row r is in the block of point r / 5000. -/
theorem tiles2 (i : S50000x96.Idx) : ∃ t : Fin cfg2.N, (cfg2.win 4).flush t = true ∧ i ∈ ((cfg2.win 4).blk t).view.set := by
  have hi0 : (i 0).val < 50000 := (i 0).isLt
  have hi1 : (i 1).val < 96 := (i 1).isLt
  have hN : grid2.N = 10 := N_2
  have ht : (i 0).val / 5000 < grid2.N := by omega
  obtain ⟨-, -, -, -, -, -, -, -, e40, e41⟩ := blocks2 ⟨(i 0).val / 5000, ht⟩
  refine ⟨⟨(i 0).val / 5000, ht⟩, flush2_4 _, ?_⟩
  rw [mem_block2]
  have e40' : win2_4.index ⟨(i 0).val / 5000, ht⟩ (0 : Fin 2) = (i 0).val / 5000 := e40
  intro a
  match a with
  | ⟨0, _⟩ => show win2_4.index ⟨(i 0).val / 5000, ht⟩ (0 : Fin 2) * 5000 ≤ (i 0).val ∧ (i 0).val < win2_4.index ⟨(i 0).val / 5000, ht⟩ (0 : Fin 2) * 5000 + 5000; omega
  | ⟨1, _⟩ => show win2_4.index ⟨(i 0).val / 5000, ht⟩ (1 : Fin 2) * 96 ≤ (i 1).val ∧ (i 1).val < win2_4.index ⟨(i 0).val / 5000, ht⟩ (1 : Fin 2) * 96 + 96; omega

/-- After pallas_call 2 the array `main_v35` holds the residual mix of the operands as the call found them. -/
theorem result2 (c : Dev nD) :
    (dat2 V c).arrAt 4 cfg2.N
      = mixRows (a := 50000) (b := 96) wOne wZero (V c main_v34 : S50000x96.Idx → EReal) (V c main_v22 : S50000x1.Idx → EReal)
          (V c main_arg2 : S50000x96.Idx → EReal) (V c main_v23 : S50000x96.Idx → EReal) :=
  (dat2 V c).arrAt_eq_of_cover 4 _ (fun t _ => flushed2 V c t) (tiles2)

/-! ## pallas_call 4: the residual mix of `main_v46` (scaled by the column `main_v22`), `main_v35` and `main_v23`, written to `main_v47` -/

/-- The index maps over the ten grid points: point t stages row block t of each operand and writes row block t
    of the result; the column axis is never cut. -/
theorem blocks4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What point t writes back is row block t of the whole mixed matrix. -/
theorem flushed4 (c : Dev nD) (t : Fin cfg4.N) :
    (dat4 V c).flushed 4 t = ((cfg4.win 4).blk t).view.read (Elt Ideal)
      (mixRows (a := 50000) (b := 96) wOne wZero (V c main_v46 : S50000x96.Idx → EReal) (V c main_v22 : S50000x1.Idx → EReal)
        (V c main_v35 : S50000x96.Idx → EReal) (V c main_v23 : S50000x96.Idx → EReal)) := by
  show (cfg4.win 4).cut (grid4.coords t) ((dat4 V c).after 4 t) = _
  rw [after4_4]
  unfold out4_4
  rw [View.canon_unit_zero origin]
  simp only [View.ld_unit_zero (S := S5000x96) origin, View.ld_unit_zero (S := S5000x1) origin]
  obtain ⟨e00, e01, e10, e11, e20, e21, e30, e31, e40, e41⟩ := blocks4 t
  funext j
  obtain ⟨p, q, rfl⟩ : ∃ (p : Fin 5000) (q : Fin 96), j = ix2 p q := ⟨j 0, j 1, eq_ix2 j⟩
  show k4_pay1 (iblk4 V c 0 t) (iblk4 V c 1 t) (iblk4 V c 2 t) (iblk4 V c 3 t) (ix2 p q)
    = mixRows (a := 50000) (b := 96) wOne wZero (V c main_v46 : S50000x96.Idx → EReal) (V c main_v22 : S50000x1.Idx → EReal)
        (V c main_v35 : S50000x96.Idx → EReal) (V c main_v23 : S50000x96.Idx → EReal) (((cfg4.win 4).blk t).view.emb (ix2 p q))
  refine (k4_pay1_apply _ _ _ _ p q).trans ?_
  have h0 : ((cfg4.win 0).blk t).view.emb (ix2 p q) = ((cfg4.win 4).blk t).view.emb (ix2 p q) := by
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 96 + 1 * q.val = win4_4.index t (1 : Fin 2) * 96 + 1 * q.val; omega
  have h1 : ((cfg4.win 1).blk t).view.emb (ix2 p (0 : Fin 1)) = rowOf (((cfg4.win 4).blk t).view.emb (ix2 p q)) := by
    funext a; apply Fin.ext
    match a with
    | ⟨0, _⟩ => show win4_1.index t (0 : Fin 2) * 5000 + 1 * p.val = win4_4.index t (0 : Fin 2) * 5000 + 1 * p.val; omega
    | ⟨1, _⟩ => show win4_1.index t (1 : Fin 2) * 1 + 1 * 0 = 0; omega
  have h2 : ((cfg4.win 2).blk t).view.emb (ix2 p q) = ((cfg4.win 4).blk t).view.emb (ix2 p q) := by
    funext a; apply Fin.ext
    match a with
    | ⟨0, _⟩ => show win4_2.index t (0 : Fin 2) * 5000 + 1 * p.val = win4_4.index t (0 : Fin 2) * 5000 + 1 * p.val; omega
    | ⟨1, _⟩ => show win4_2.index t (1 : Fin 2) * 96 + 1 * q.val = win4_4.index t (1 : Fin 2) * 96 + 1 * q.val; omega
  have h3 : ((cfg4.win 3).blk t).view.emb (ix2 p q) = ((cfg4.win 4).blk t).view.emb (ix2 p q) := by
    funext a; apply Fin.ext
    match a with
    | ⟨0, _⟩ => show win4_3.index t (0 : Fin 2) * 5000 + 1 * p.val = win4_4.index t (0 : Fin 2) * 5000 + 1 * p.val; omega
    | ⟨1, _⟩ => show win4_3.index t (1 : Fin 2) * 96 + 1 * q.val = win4_4.index t (1 : Fin 2) * 96 + 1 * q.val; omega
  exact mixRows_of_eq (a := 50000) (b := 96) wOne wZero (V c main_v46) (V c main_v22) (V c main_v35) (V c main_v23)
    (((cfg4.win 0).blk t).view.emb (ix2 p q)) (((cfg4.win 2).blk t).view.emb (ix2 p q)) (((cfg4.win 3).blk t).view.emb (ix2 p q))
    (((cfg4.win 4).blk t).view.emb (ix2 p q)) (((cfg4.win 1).blk t).view.emb (ix2 p (0 : Fin 1))) h0 h1 h2 h3

/-- An entry of the result array lies in point t's block iff each coordinate lies in the block's range. -/
theorem mem_block4 (t : Fin cfg4.N) (i : S50000x96.Idx) :
    i ∈ ((cfg4.win 4).blk t).view.set ↔ ∀ a : Fin 2, win4_4.index t a * S5000x96.size a ≤ (i a).val ∧ (i a).val < win4_4.index t a * S5000x96.size a + S5000x96.size a := by
  show i ∈ ((View.whole main_v47).slice (win4_4.rect t)).set ↔ _
  rw [View.set_slice_whole, Rect.mem_set_unit]
  exact Iff.rfl

/-- The ten row blocks tile the result: row r is in the block of point r / 5000. -/
theorem tiles4 (i : S50000x96.Idx) : ∃ t : Fin cfg4.N, (cfg4.win 4).flush t = true ∧ i ∈ ((cfg4.win 4).blk t).view.set := by
  have hi0 : (i 0).val < 50000 := (i 0).isLt
  have hi1 : (i 1).val < 96 := (i 1).isLt
  have hN : grid4.N = 10 := N_4
  have ht : (i 0).val / 5000 < grid4.N := by omega
  obtain ⟨-, -, -, -, -, -, -, -, e40, e41⟩ := blocks4 ⟨(i 0).val / 5000, ht⟩
  refine ⟨⟨(i 0).val / 5000, ht⟩, flush4_4 _, ?_⟩
  rw [mem_block4]
  have e40' : win4_4.index ⟨(i 0).val / 5000, ht⟩ (0 : Fin 2) = (i 0).val / 5000 := e40
  intro a
  match a with
  | ⟨0, _⟩ => show win4_4.index ⟨(i 0).val / 5000, ht⟩ (0 : Fin 2) * 5000 ≤ (i 0).val ∧ (i 0).val < win4_4.index ⟨(i 0).val / 5000, ht⟩ (0 : Fin 2) * 5000 + 5000; omega
  | ⟨1, _⟩ => show win4_4.index ⟨(i 0).val / 5000, ht⟩ (1 : Fin 2) * 96 ≤ (i 1).val ∧ (i 1).val < win4_4.index ⟨(i 0).val / 5000, ht⟩ (1 : Fin 2) * 96 + 96; omega

/-- After pallas_call 4 the array `main_v47` holds the residual mix of the operands as the call found them. -/
theorem result4 (c : Dev nD) :
    (dat4 V c).arrAt 4 cfg4.N
      = mixRows (a := 50000) (b := 96) wOne wZero (V c main_v46 : S50000x96.Idx → EReal) (V c main_v22 : S50000x1.Idx → EReal)
          (V c main_v35 : S50000x96.Idx → EReal) (V c main_v23 : S50000x96.Idx → EReal) :=
  (dat4 V c).arrAt_eq_of_cover 4 _ (fun t _ => flushed4 V c t) (tiles4)

/-! ## pallas_call 6: the residual mix of `main_v58` (scaled by the column `main_v22`), `main_v47` and `main_v23`, written to `main_v59` -/

/-- The index maps over the ten grid points: point t stages row block t of each operand and writes row block t
    of the result; the column axis is never cut. -/
theorem blocks6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- What point t writes back is row block t of the whole mixed matrix. -/
theorem flushed6 (c : Dev nD) (t : Fin cfg6.N) :
    (dat6 V c).flushed 4 t = ((cfg6.win 4).blk t).view.read (Elt Ideal)
      (mixRows (a := 50000) (b := 96) wOne wZero (V c main_v58 : S50000x96.Idx → EReal) (V c main_v22 : S50000x1.Idx → EReal)
        (V c main_v47 : S50000x96.Idx → EReal) (V c main_v23 : S50000x96.Idx → EReal)) := by
  show (cfg6.win 4).cut (grid6.coords t) ((dat6 V c).after 4 t) = _
  rw [after6_4]
  unfold out6_4
  rw [View.canon_unit_zero origin]
  simp only [View.ld_unit_zero (S := S5000x96) origin, View.ld_unit_zero (S := S5000x1) origin]
  obtain ⟨e00, e01, e10, e11, e20, e21, e30, e31, e40, e41⟩ := blocks6 t
  funext j
  obtain ⟨p, q, rfl⟩ : ∃ (p : Fin 5000) (q : Fin 96), j = ix2 p q := ⟨j 0, j 1, eq_ix2 j⟩
  show k6_pay1 (iblk6 V c 0 t) (iblk6 V c 1 t) (iblk6 V c 2 t) (iblk6 V c 3 t) (ix2 p q)
    = mixRows (a := 50000) (b := 96) wOne wZero (V c main_v58 : S50000x96.Idx → EReal) (V c main_v22 : S50000x1.Idx → EReal)
        (V c main_v47 : S50000x96.Idx → EReal) (V c main_v23 : S50000x96.Idx → EReal) (((cfg6.win 4).blk t).view.emb (ix2 p q))
  refine (k6_pay1_apply _ _ _ _ p q).trans ?_
  have h0 : ((cfg6.win 0).blk t).view.emb (ix2 p q) = ((cfg6.win 4).blk t).view.emb (ix2 p q) := by
    funext a; apply Fin.ext
    match a with
    | ⟨0, _⟩ => show win6_0.index t (0 : Fin 2) * 5000 + 1 * p.val = win6_4.index t (0 : Fin 2) * 5000 + 1 * p.val; omega
    | ⟨1, _⟩ => show win6_0.index t (1 : Fin 2) * 96 + 1 * q.val = win6_4.index t (1 : Fin 2) * 96 + 1 * q.val; omega
  have h1 : ((cfg6.win 1).blk t).view.emb (ix2 p (0 : Fin 1)) = rowOf (((cfg6.win 4).blk t).view.emb (ix2 p q)) := by
    funext a; apply Fin.ext
    match a with
    | ⟨0, _⟩ => show win6_1.index t (0 : Fin 2) * 5000 + 1 * p.val = win6_4.index t (0 : Fin 2) * 5000 + 1 * p.val; omega
    | ⟨1, _⟩ => show win6_1.index t (1 : Fin 2) * 1 + 1 * 0 = 0; omega
  have h2 : ((cfg6.win 2).blk t).view.emb (ix2 p q) = ((cfg6.win 4).blk t).view.emb (ix2 p q) := by
    funext a; apply Fin.ext
    match a with
    | ⟨0, _⟩ => show win6_2.index t (0 : Fin 2) * 5000 + 1 * p.val = win6_4.index t (0 : Fin 2) * 5000 + 1 * p.val; omega
    | ⟨1, _⟩ => show win6_2.index t (1 : Fin 2) * 96 + 1 * q.val = win6_4.index t (1 : Fin 2) * 96 + 1 * q.val; omega
  have h3 : ((cfg6.win 3).blk t).view.emb (ix2 p q) = ((cfg6.win 4).blk t).view.emb (ix2 p q) := by
    funext a; apply Fin.ext
    match a with
    | ⟨0, _⟩ => show win6_3.index t (0 : Fin 2) * 5000 + 1 * p.val = win6_4.index t (0 : Fin 2) * 5000 + 1 * p.val; omega
    | ⟨1, _⟩ => show win6_3.index t (1 : Fin 2) * 96 + 1 * q.val = win6_4.index t (1 : Fin 2) * 96 + 1 * q.val; omega
  exact mixRows_of_eq (a := 50000) (b := 96) wOne wZero (V c main_v58) (V c main_v22) (V c main_v47) (V c main_v23)
    (((cfg6.win 0).blk t).view.emb (ix2 p q)) (((cfg6.win 2).blk t).view.emb (ix2 p q)) (((cfg6.win 3).blk t).view.emb (ix2 p q))
    (((cfg6.win 4).blk t).view.emb (ix2 p q)) (((cfg6.win 1).blk t).view.emb (ix2 p (0 : Fin 1))) h0 h1 h2 h3

/-- An entry of the result array lies in point t's block iff each coordinate lies in the block's range. -/
theorem mem_block6 (t : Fin cfg6.N) (i : S50000x96.Idx) :
    i ∈ ((cfg6.win 4).blk t).view.set ↔ ∀ a : Fin 2, win6_4.index t a * S5000x96.size a ≤ (i a).val ∧ (i a).val < win6_4.index t a * S5000x96.size a + S5000x96.size a := by
  show i ∈ ((View.whole main_v59).slice (win6_4.rect t)).set ↔ _
  rw [View.set_slice_whole, Rect.mem_set_unit]
  exact Iff.rfl

/-- The ten row blocks tile the result: row r is in the block of point r / 5000. -/
theorem tiles6 (i : S50000x96.Idx) : ∃ t : Fin cfg6.N, (cfg6.win 4).flush t = true ∧ i ∈ ((cfg6.win 4).blk t).view.set := by
  have hi0 : (i 0).val < 50000 := (i 0).isLt
  have hi1 : (i 1).val < 96 := (i 1).isLt
  have hN : grid6.N = 10 := N_6
  have ht : (i 0).val / 5000 < grid6.N := by omega
  obtain ⟨-, -, -, -, -, -, -, -, e40, e41⟩ := blocks6 ⟨(i 0).val / 5000, ht⟩
  refine ⟨⟨(i 0).val / 5000, ht⟩, flush6_4 _, ?_⟩
  rw [mem_block6]
  have e40' : win6_4.index ⟨(i 0).val / 5000, ht⟩ (0 : Fin 2) = (i 0).val / 5000 := e40
  intro a
  match a with
  | ⟨0, _⟩ => show win6_4.index ⟨(i 0).val / 5000, ht⟩ (0 : Fin 2) * 5000 ≤ (i 0).val ∧ (i 0).val < win6_4.index ⟨(i 0).val / 5000, ht⟩ (0 : Fin 2) * 5000 + 5000; omega
  | ⟨1, _⟩ => show win6_4.index ⟨(i 0).val / 5000, ht⟩ (1 : Fin 2) * 96 ≤ (i 1).val ∧ (i 1).val < win6_4.index ⟨(i 0).val / 5000, ht⟩ (1 : Fin 2) * 96 + 96; omega

/-- After pallas_call 6 the array `main_v59` holds the residual mix of the operands as the call found them. -/
theorem result6 (c : Dev nD) :
    (dat6 V c).arrAt 4 cfg6.N
      = mixRows (a := 50000) (b := 96) wOne wZero (V c main_v58 : S50000x96.Idx → EReal) (V c main_v22 : S50000x1.Idx → EReal)
          (V c main_v47 : S50000x96.Idx → EReal) (V c main_v23 : S50000x96.Idx → EReal) :=
  (dat6 V c).arrAt_eq_of_cover 4 _ (fun t _ => flushed6 V c t) (tiles6)

end Cert.KernelIdeal.Region

end
-- ==== Proof.Hops.lean ====
/-
  The kernel program's value, named. From the destination list the host prefix computes three columns over the
  nodes — (deg + 1)^(-1), sqrt(deg + 1) and (deg + 1)^(-1/2), deg the in-degree less one — and the product of the
  first two. One propagation step takes a node-feature matrix h, scales its rows by (deg + 1)^(-1/2), sums the rows
  of the sources into the destinations (a gather along the source list, then a scatter-add along the destination
  list into zeros), and mixes: one * (sum * column product) + zero * h + one * (features scaled by (deg + 1)^(-1)).
  The program's result is three steps from the features.
-/
import proofs.«100235_j40467181863409_1_alg».proof.KernelIdeal
import proofs.«100235_j40467181863409_1_alg».proof.Proof.Gen.KernelIdeal
import proofs.«100235_j40467181863409_1_alg».proof.Proof.Payload

noncomputable section

namespace Cert.KernelIdeal.Hops

open Idealize.ShloMosaic Cert.KernelIdeal Cert.RowScale Cert.KernelIdeal.Body
open Cert.KernelIdeal.Facts₀ Cert.KernelIdeal.Facts

/-- An edge list: 850000 node numbers as 32-bit words. -/
abbrev Edges : Type := IVec S850000 32
/-- A node-feature matrix [50000, 96] of extended reals. -/
abbrev Feat : Type := FVec Ideal S50000x96 .f32
/-- A column [50000, 1] over the nodes. -/
abbrev NodeCol : Type := FVec Ideal S50000x1 .f32

/-- The in-degree of every node along the destination list (ones scatter-added into zeros), less one. -/
def degs (dst : Edges) : FVec Ideal S50000 .f32 :=
  subf (Host.scatterAdd scatter_S50000_S850000x1_S850000_n_0_0_1
      (broadcastInDim S50000 ![] Facts₀.bcast_S_S50000 (constant S_ .f32 0x00000000#32))
      (broadcastInDim S850000x1 ![0] Facts₀.bcast_S850000_S850000x1_0 dst)
      (broadcastInDim S850000 ![] Facts₀.bcast_S_S850000 (constant S_ .f32 0x3F800000#32)))
    (broadcastInDim S50000 ![] Facts₀.bcast_S_S50000 (constant S_ .f32 0x3F800000#32))

/-- The column (1 * deg + 1)^(-1). -/
def colInv (dst : Edges) : NodeCol :=
  broadcastInDim S50000x1 ![0] Facts₀.bcast_S50000_S50000x1_0
    (Host.powf (addf (mulf (broadcastInDim S50000 ![] Facts₀.bcast_S_S50000 (constant S_ .f32 0x3F800000#32)) (degs dst))
        (broadcastInDim S50000 ![] Facts₀.bcast_S_S50000 (constant S_ .f32 0x3F800000#32)))
      (broadcastInDim S50000 ![] Facts₀.bcast_S_S50000 (constant S_ .f32 0xBF800000#32)))

/-- The column sqrt(deg + 1). -/
def colSqrt (dst : Edges) : NodeCol :=
  broadcastInDim S50000x1 ![0] Facts₀.bcast_S50000_S50000x1_0
    (Host.sqrt (addf (degs dst) (broadcastInDim S50000 ![] Facts₀.bcast_S_S50000 (constant S_ .f32 0x3F800000#32))))

/-- The column (deg + 1)^(-1/2). -/
def colRsqrt (dst : Edges) : NodeCol :=
  broadcastInDim S50000x1 ![0] Facts₀.bcast_S50000_S50000x1_0
    (Host.powf (addf (degs dst) (broadcastInDim S50000 ![] Facts₀.bcast_S_S50000 (constant S_ .f32 0x3F800000#32)))
      (broadcastInDim S50000 ![] Facts₀.bcast_S_S50000 (constant S_ .f32 0xBF000000#32)))

/-- The column (deg + 1)^(-1) * sqrt(deg + 1), the product taken on the columns. -/
def colPost (dst : Edges) : NodeCol := mulf (colInv dst) (colSqrt dst)

/-- The rows of x at the sources, summed into the destinations: the source numbers wrapped when negative, a row
    gather along them, a scatter-add along the destination list into zeros. -/
def aggregate (x : Feat) (src dst : Edges) : Feat :=
  Host.scatterAdd scatter_S50000x96_S850000x1_S850000x96_1_0_0_1
    (broadcastInDim S50000x96 ![] Facts₀.bcast_S_S50000x96 (constant S_ .f32 0x00000000#32))
    (broadcastInDim S850000x1 ![0] Facts₀.bcast_S850000_S850000x1_0 dst)
    (Host.gather gather_S50000x96_S850000x1_S850000x96_1_0_n_n_0_1_196 x
      (broadcastInDim S850000x1 ![0] Facts₀.bcast_S850000_S850000x1_0
        (select (cmpi .slt src (broadcastInDim S850000 ![] Facts₀.bcast_S_S850000 (constantI S_ 32 0#32)))
          (addi src (broadcastInDim S850000 ![] Facts₀.bcast_S_S850000 (constantI S_ 32 50000#32))) src)))

/-- The features scaled by (deg + 1)^(-1): the term every step adds. -/
def hInit (dst : Edges) (feat : Feat) : Feat := scaleRows (a := 50000) (b := 96) feat (colInv dst)

/-- One propagation step from h. -/
def hop (src dst : Edges) (feat h : Feat) : Feat :=
  mixRows (a := 50000) (b := 96) wOne wZero (aggregate (scaleRows (a := 50000) (b := 96) h (colRsqrt dst)) src dst) (colPost dst) h (hInit dst feat)

/-- The program's result: three steps from the features. -/
def result (src dst : Edges) (feat : Feat) : Feat := hop src dst feat (hop src dst feat (hop src dst feat feat))

end Cert.KernelIdeal.Hops

end
-- ==== Proof.Fold.lean ====
/-
  What the buffers hold at each boundary of the kernel program, from the launch to the return.

  The program is four stretches of host operations around seven pallas_calls. Each boundary's contents are the
  previous boundary's with the stretch's results, or the call's output array, replaced; everything else is kept.
  Walking the eleven boundaries in order, each buffer a later step reads is identified with its value as a
  function of the three argument arrays: the degree columns after the prefix, the scaled features after the
  first two calls, then for each of the three propagation steps the row-scaled matrix, its aggregate along the
  edges and the mixed matrix. The last boundary's result buffer holds three propagation steps from the features.
-/
import proofs.«100235_j40467181863409_1_alg».proof.Proof.Gen.KernelIdeal.Frame
import proofs.«100235_j40467181863409_1_alg».proof.Proof.RegionScale
import proofs.«100235_j40467181863409_1_alg».proof.Proof.RegionMix
import proofs.«100235_j40467181863409_1_alg».proof.Proof.Hops
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Cert.RowScale Cert.KernelIdeal.Body Cert.KernelIdeal.Hops Cert.KernelIdeal.Region
open Idealize.ShloMosaic.StableHlo
open Idealize.ShloMosaic.Pipeline (Dat)

variable (m : (ℓ : Loc nD τ sig) → Buf (Elt Ideal) ℓ) (ρ : Dev nD → PrngReg) (c : Dev nD)

/-- The source list as launched. -/
abbrev src : Edges := m ((c : Thread nD τ).loc main_arg0)
/-- The destination list as launched. -/
abbrev dst : Edges := m ((c : Thread nD τ).loc main_arg1)
/-- The features as launched. -/
abbrev feat : Feat := m ((c : Thread nD τ).loc main_arg2)
/-- The features after one propagation step. -/
abbrev h1 : Feat := hop (src m c) (dst m c) (feat m c) (feat m c)
/-- The features after two propagation steps. -/
abbrev h2 : Feat := hop (src m c) (dst m c) (feat m c) (h1 m c)

/-! ## Boundary 1: after the host prefix (the degree columns), at the entry of pallas_call 0 -/

theorem at1_arg0 : W1 m ρ c (Proc.devRef .tc main_arg0) = src m c :=
  (show StableHlo.after hostOps0 (W0 m ρ c) (Proc.devRef .tc main_arg0) = W0 m ρ c (Proc.devRef .tc main_arg0) by
    dsimp only [hostOps0]; after_results_simp)

theorem at1_arg1 : W1 m ρ c (Proc.devRef .tc main_arg1) = dst m c :=
  (show StableHlo.after hostOps0 (W0 m ρ c) (Proc.devRef .tc main_arg1) = W0 m ρ c (Proc.devRef .tc main_arg1) by
    dsimp only [hostOps0]; after_results_simp)

theorem at1_arg2 : W1 m ρ c (Proc.devRef .tc main_arg2) = feat m c :=
  (show StableHlo.after hostOps0 (W0 m ρ c) (Proc.devRef .tc main_arg2) = W0 m ρ c (Proc.devRef .tc main_arg2) by
    dsimp only [hostOps0]; after_results_simp)

theorem at1_v19 : W1 m ρ c (Proc.devRef .tc main_v19) = colInv (dst m c) := by
  show StableHlo.after hostOps0 (W0 m ρ c) (Proc.devRef .tc main_v19) = _
  dsimp only [hostOps0]
  after_results_simp
  rfl

theorem at1_v21 : W1 m ρ c (Proc.devRef .tc main_v21) = colRsqrt (dst m c) := by
  show StableHlo.after hostOps0 (W0 m ρ c) (Proc.devRef .tc main_v21) = _
  dsimp only [hostOps0]
  after_results_simp
  rfl

theorem at1_v22 : W1 m ρ c (Proc.devRef .tc main_v22) = colPost (dst m c) := by
  show StableHlo.after hostOps0 (W0 m ρ c) (Proc.devRef .tc main_v22) = _
  dsimp only [hostOps0]
  after_results_simp
  rfl

/-! ## Boundary 2: after pallas_call 0 (the features scaled by (deg + 1)^(-1)) -/

theorem at2_arg0 : W2 m ρ c (Proc.devRef .tc main_arg0) = src m c :=
  (W2_of_ne m ρ c main_arg0 (by decide)).trans (at1_arg0 m ρ c)

theorem at2_arg1 : W2 m ρ c (Proc.devRef .tc main_arg1) = dst m c :=
  (W2_of_ne m ρ c main_arg1 (by decide)).trans (at1_arg1 m ρ c)

theorem at2_arg2 : W2 m ρ c (Proc.devRef .tc main_arg2) = feat m c :=
  ((W2_arr m ρ c 0).trans (((dat0 (V1 m ρ) c).arrAt_in 0 rfl _).trans (A_eq0 (V1 m ρ) c 0))).trans (at1_arg2 m ρ c)

theorem at2_v21 : W2 m ρ c (Proc.devRef .tc main_v21) = colRsqrt (dst m c) :=
  (W2_of_ne m ρ c main_v21 (by decide)).trans (at1_v21 m ρ c)

theorem at2_v22 : W2 m ρ c (Proc.devRef .tc main_v22) = colPost (dst m c) :=
  (W2_of_ne m ρ c main_v22 (by decide)).trans (at1_v22 m ρ c)

theorem at2_v23 : W2 m ρ c (Proc.devRef .tc main_v23) = hInit (dst m c) (feat m c) :=
  (W2_arr m ρ c 2).trans ((result0 (V1 m ρ) c).trans (scaleRows_congr (at1_arg2 m ρ c) (at1_v19 m ρ c)))

/-! ## Boundary 3: after pallas_call 1 (the features scaled by (deg + 1)^(-1/2)) -/

theorem at3_arg0 : W3 m ρ c (Proc.devRef .tc main_arg0) = src m c :=
  (W3_of_ne m ρ c main_arg0 (by decide)).trans (at2_arg0 m ρ c)

theorem at3_arg1 : W3 m ρ c (Proc.devRef .tc main_arg1) = dst m c :=
  (W3_of_ne m ρ c main_arg1 (by decide)).trans (at2_arg1 m ρ c)

theorem at3_arg2 : W3 m ρ c (Proc.devRef .tc main_arg2) = feat m c :=
  ((W3_arr m ρ c 0).trans (((dat1 (V2 m ρ) c).arrAt_in 0 rfl _).trans (A_eq1 (V2 m ρ) c 0))).trans (at2_arg2 m ρ c)

theorem at3_v21 : W3 m ρ c (Proc.devRef .tc main_v21) = colRsqrt (dst m c) :=
  ((W3_arr m ρ c 1).trans (((dat1 (V2 m ρ) c).arrAt_in 1 rfl _).trans (A_eq1 (V2 m ρ) c 1))).trans (at2_v21 m ρ c)

theorem at3_v22 : W3 m ρ c (Proc.devRef .tc main_v22) = colPost (dst m c) :=
  (W3_of_ne m ρ c main_v22 (by decide)).trans (at2_v22 m ρ c)

theorem at3_v23 : W3 m ρ c (Proc.devRef .tc main_v23) = hInit (dst m c) (feat m c) :=
  (W3_of_ne m ρ c main_v23 (by decide)).trans (at2_v23 m ρ c)

theorem at3_v24 : W3 m ρ c (Proc.devRef .tc main_v24) = scaleRows (a := 50000) (b := 96) (feat m c) (colRsqrt (dst m c)) :=
  (W3_arr m ρ c 2).trans ((result1 (V2 m ρ) c).trans (scaleRows_congr (at2_arg2 m ρ c) (at2_v21 m ρ c)))

/-! ## Boundary 4: after the first gather and scatter-add -/

theorem at4_arg0 : W4 m ρ c (Proc.devRef .tc main_arg0) = src m c :=
  (show StableHlo.after hostOps2 (W3 m ρ c) (Proc.devRef .tc main_arg0) = W3 m ρ c (Proc.devRef .tc main_arg0) by
    dsimp only [hostOps2]; after_results_simp).trans (at3_arg0 m ρ c)

theorem at4_arg1 : W4 m ρ c (Proc.devRef .tc main_arg1) = dst m c :=
  (show StableHlo.after hostOps2 (W3 m ρ c) (Proc.devRef .tc main_arg1) = W3 m ρ c (Proc.devRef .tc main_arg1) by
    dsimp only [hostOps2]; after_results_simp).trans (at3_arg1 m ρ c)

theorem at4_arg2 : W4 m ρ c (Proc.devRef .tc main_arg2) = feat m c :=
  (show StableHlo.after hostOps2 (W3 m ρ c) (Proc.devRef .tc main_arg2) = W3 m ρ c (Proc.devRef .tc main_arg2) by
    dsimp only [hostOps2]; after_results_simp).trans (at3_arg2 m ρ c)

theorem at4_v21 : W4 m ρ c (Proc.devRef .tc main_v21) = colRsqrt (dst m c) :=
  (show StableHlo.after hostOps2 (W3 m ρ c) (Proc.devRef .tc main_v21) = W3 m ρ c (Proc.devRef .tc main_v21) by
    dsimp only [hostOps2]; after_results_simp).trans (at3_v21 m ρ c)

theorem at4_v22 : W4 m ρ c (Proc.devRef .tc main_v22) = colPost (dst m c) :=
  (show StableHlo.after hostOps2 (W3 m ρ c) (Proc.devRef .tc main_v22) = W3 m ρ c (Proc.devRef .tc main_v22) by
    dsimp only [hostOps2]; after_results_simp).trans (at3_v22 m ρ c)

theorem at4_v23 : W4 m ρ c (Proc.devRef .tc main_v23) = hInit (dst m c) (feat m c) :=
  (show StableHlo.after hostOps2 (W3 m ρ c) (Proc.devRef .tc main_v23) = W3 m ρ c (Proc.devRef .tc main_v23) by
    dsimp only [hostOps2]; after_results_simp).trans (at3_v23 m ρ c)

theorem at4_v34 : W4 m ρ c (Proc.devRef .tc main_v34) = aggregate (scaleRows (a := 50000) (b := 96) (feat m c) (colRsqrt (dst m c))) (src m c) (dst m c) := by
  show StableHlo.after hostOps2 (W3 m ρ c) (Proc.devRef .tc main_v34) = _
  dsimp only [hostOps2]
  after_results_simp
  rw [at3_v24 m ρ c, at3_arg0 m ρ c, at3_arg1 m ρ c]
  rfl

/-! ## Boundary 5: after pallas_call 2 (the first step's mix) -/

theorem at5_arg0 : W5 m ρ c (Proc.devRef .tc main_arg0) = src m c :=
  (W5_of_ne m ρ c main_arg0 (by decide)).trans (at4_arg0 m ρ c)

theorem at5_arg1 : W5 m ρ c (Proc.devRef .tc main_arg1) = dst m c :=
  (W5_of_ne m ρ c main_arg1 (by decide)).trans (at4_arg1 m ρ c)

theorem at5_v21 : W5 m ρ c (Proc.devRef .tc main_v21) = colRsqrt (dst m c) :=
  (W5_of_ne m ρ c main_v21 (by decide)).trans (at4_v21 m ρ c)

theorem at5_v22 : W5 m ρ c (Proc.devRef .tc main_v22) = colPost (dst m c) :=
  ((W5_arr m ρ c 1).trans (((dat2 (V4 m ρ) c).arrAt_in 1 rfl _).trans (A_eq2 (V4 m ρ) c 1))).trans (at4_v22 m ρ c)

theorem at5_v23 : W5 m ρ c (Proc.devRef .tc main_v23) = hInit (dst m c) (feat m c) :=
  ((W5_arr m ρ c 3).trans (((dat2 (V4 m ρ) c).arrAt_in 3 rfl _).trans (A_eq2 (V4 m ρ) c 3))).trans (at4_v23 m ρ c)

theorem at5_v35 : W5 m ρ c (Proc.devRef .tc main_v35) = h1 m c :=
  (W5_arr m ρ c 4).trans ((result2 (V4 m ρ) c).trans (mixRows_congr wOne wZero (at4_v34 m ρ c) (at4_v22 m ρ c) (at4_arg2 m ρ c) (at4_v23 m ρ c)))

/-! ## Boundary 6: after pallas_call 3 -/

theorem at6_arg0 : W6 m ρ c (Proc.devRef .tc main_arg0) = src m c :=
  (W6_of_ne m ρ c main_arg0 (by decide)).trans (at5_arg0 m ρ c)

theorem at6_arg1 : W6 m ρ c (Proc.devRef .tc main_arg1) = dst m c :=
  (W6_of_ne m ρ c main_arg1 (by decide)).trans (at5_arg1 m ρ c)

theorem at6_v21 : W6 m ρ c (Proc.devRef .tc main_v21) = colRsqrt (dst m c) :=
  ((W6_arr m ρ c 1).trans (((dat3 (V5 m ρ) c).arrAt_in 1 rfl _).trans (A_eq3 (V5 m ρ) c 1))).trans (at5_v21 m ρ c)

theorem at6_v22 : W6 m ρ c (Proc.devRef .tc main_v22) = colPost (dst m c) :=
  (W6_of_ne m ρ c main_v22 (by decide)).trans (at5_v22 m ρ c)

theorem at6_v23 : W6 m ρ c (Proc.devRef .tc main_v23) = hInit (dst m c) (feat m c) :=
  (W6_of_ne m ρ c main_v23 (by decide)).trans (at5_v23 m ρ c)

theorem at6_v35 : W6 m ρ c (Proc.devRef .tc main_v35) = h1 m c :=
  ((W6_arr m ρ c 0).trans (((dat3 (V5 m ρ) c).arrAt_in 0 rfl _).trans (A_eq3 (V5 m ρ) c 0))).trans (at5_v35 m ρ c)

theorem at6_v36 : W6 m ρ c (Proc.devRef .tc main_v36) = scaleRows (a := 50000) (b := 96) (h1 m c) (colRsqrt (dst m c)) :=
  (W6_arr m ρ c 2).trans ((result3 (V5 m ρ) c).trans (scaleRows_congr (at5_v35 m ρ c) (at5_v21 m ρ c)))

/-! ## Boundary 7: after the second gather and scatter-add -/

theorem at7_arg0 : W7 m ρ c (Proc.devRef .tc main_arg0) = src m c :=
  (show StableHlo.after hostOps4 (W6 m ρ c) (Proc.devRef .tc main_arg0) = W6 m ρ c (Proc.devRef .tc main_arg0) by
    dsimp only [hostOps4]; after_results_simp).trans (at6_arg0 m ρ c)

theorem at7_arg1 : W7 m ρ c (Proc.devRef .tc main_arg1) = dst m c :=
  (show StableHlo.after hostOps4 (W6 m ρ c) (Proc.devRef .tc main_arg1) = W6 m ρ c (Proc.devRef .tc main_arg1) by
    dsimp only [hostOps4]; after_results_simp).trans (at6_arg1 m ρ c)

theorem at7_v21 : W7 m ρ c (Proc.devRef .tc main_v21) = colRsqrt (dst m c) :=
  (show StableHlo.after hostOps4 (W6 m ρ c) (Proc.devRef .tc main_v21) = W6 m ρ c (Proc.devRef .tc main_v21) by
    dsimp only [hostOps4]; after_results_simp).trans (at6_v21 m ρ c)

theorem at7_v22 : W7 m ρ c (Proc.devRef .tc main_v22) = colPost (dst m c) :=
  (show StableHlo.after hostOps4 (W6 m ρ c) (Proc.devRef .tc main_v22) = W6 m ρ c (Proc.devRef .tc main_v22) by
    dsimp only [hostOps4]; after_results_simp).trans (at6_v22 m ρ c)

theorem at7_v23 : W7 m ρ c (Proc.devRef .tc main_v23) = hInit (dst m c) (feat m c) :=
  (show StableHlo.after hostOps4 (W6 m ρ c) (Proc.devRef .tc main_v23) = W6 m ρ c (Proc.devRef .tc main_v23) by
    dsimp only [hostOps4]; after_results_simp).trans (at6_v23 m ρ c)

theorem at7_v35 : W7 m ρ c (Proc.devRef .tc main_v35) = h1 m c :=
  (show StableHlo.after hostOps4 (W6 m ρ c) (Proc.devRef .tc main_v35) = W6 m ρ c (Proc.devRef .tc main_v35) by
    dsimp only [hostOps4]; after_results_simp).trans (at6_v35 m ρ c)

theorem at7_v46 : W7 m ρ c (Proc.devRef .tc main_v46) = aggregate (scaleRows (a := 50000) (b := 96) (h1 m c) (colRsqrt (dst m c))) (src m c) (dst m c) := by
  show StableHlo.after hostOps4 (W6 m ρ c) (Proc.devRef .tc main_v46) = _
  dsimp only [hostOps4]
  after_results_simp
  rw [at6_v36 m ρ c, at6_arg0 m ρ c, at6_arg1 m ρ c]
  rfl

/-! ## Boundary 8: after pallas_call 4 (the second step's mix) -/

theorem at8_arg0 : W8 m ρ c (Proc.devRef .tc main_arg0) = src m c :=
  (W8_of_ne m ρ c main_arg0 (by decide)).trans (at7_arg0 m ρ c)

theorem at8_arg1 : W8 m ρ c (Proc.devRef .tc main_arg1) = dst m c :=
  (W8_of_ne m ρ c main_arg1 (by decide)).trans (at7_arg1 m ρ c)

theorem at8_v21 : W8 m ρ c (Proc.devRef .tc main_v21) = colRsqrt (dst m c) :=
  (W8_of_ne m ρ c main_v21 (by decide)).trans (at7_v21 m ρ c)

theorem at8_v22 : W8 m ρ c (Proc.devRef .tc main_v22) = colPost (dst m c) :=
  ((W8_arr m ρ c 1).trans (((dat4 (V7 m ρ) c).arrAt_in 1 rfl _).trans (A_eq4 (V7 m ρ) c 1))).trans (at7_v22 m ρ c)

theorem at8_v23 : W8 m ρ c (Proc.devRef .tc main_v23) = hInit (dst m c) (feat m c) :=
  ((W8_arr m ρ c 3).trans (((dat4 (V7 m ρ) c).arrAt_in 3 rfl _).trans (A_eq4 (V7 m ρ) c 3))).trans (at7_v23 m ρ c)

theorem at8_v47 : W8 m ρ c (Proc.devRef .tc main_v47) = h2 m c :=
  (W8_arr m ρ c 4).trans ((result4 (V7 m ρ) c).trans (mixRows_congr wOne wZero (at7_v46 m ρ c) (at7_v22 m ρ c) (at7_v35 m ρ c) (at7_v23 m ρ c)))

/-! ## Boundary 9: after pallas_call 5 -/

theorem at9_arg0 : W9 m ρ c (Proc.devRef .tc main_arg0) = src m c :=
  (W9_of_ne m ρ c main_arg0 (by decide)).trans (at8_arg0 m ρ c)

theorem at9_arg1 : W9 m ρ c (Proc.devRef .tc main_arg1) = dst m c :=
  (W9_of_ne m ρ c main_arg1 (by decide)).trans (at8_arg1 m ρ c)

theorem at9_v22 : W9 m ρ c (Proc.devRef .tc main_v22) = colPost (dst m c) :=
  (W9_of_ne m ρ c main_v22 (by decide)).trans (at8_v22 m ρ c)

theorem at9_v23 : W9 m ρ c (Proc.devRef .tc main_v23) = hInit (dst m c) (feat m c) :=
  (W9_of_ne m ρ c main_v23 (by decide)).trans (at8_v23 m ρ c)

theorem at9_v47 : W9 m ρ c (Proc.devRef .tc main_v47) = h2 m c :=
  ((W9_arr m ρ c 0).trans (((dat5 (V8 m ρ) c).arrAt_in 0 rfl _).trans (A_eq5 (V8 m ρ) c 0))).trans (at8_v47 m ρ c)

theorem at9_v48 : W9 m ρ c (Proc.devRef .tc main_v48) = scaleRows (a := 50000) (b := 96) (h2 m c) (colRsqrt (dst m c)) :=
  (W9_arr m ρ c 2).trans ((result5 (V8 m ρ) c).trans (scaleRows_congr (at8_v47 m ρ c) (at8_v21 m ρ c)))

/-! ## Boundary 10: after the third gather and scatter-add -/

theorem at10_v22 : W10 m ρ c (Proc.devRef .tc main_v22) = colPost (dst m c) :=
  (show StableHlo.after hostOps6 (W9 m ρ c) (Proc.devRef .tc main_v22) = W9 m ρ c (Proc.devRef .tc main_v22) by
    dsimp only [hostOps6]; after_results_simp).trans (at9_v22 m ρ c)

theorem at10_v23 : W10 m ρ c (Proc.devRef .tc main_v23) = hInit (dst m c) (feat m c) :=
  (show StableHlo.after hostOps6 (W9 m ρ c) (Proc.devRef .tc main_v23) = W9 m ρ c (Proc.devRef .tc main_v23) by
    dsimp only [hostOps6]; after_results_simp).trans (at9_v23 m ρ c)

theorem at10_v47 : W10 m ρ c (Proc.devRef .tc main_v47) = h2 m c :=
  (show StableHlo.after hostOps6 (W9 m ρ c) (Proc.devRef .tc main_v47) = W9 m ρ c (Proc.devRef .tc main_v47) by
    dsimp only [hostOps6]; after_results_simp).trans (at9_v47 m ρ c)

theorem at10_v58 : W10 m ρ c (Proc.devRef .tc main_v58) = aggregate (scaleRows (a := 50000) (b := 96) (h2 m c) (colRsqrt (dst m c))) (src m c) (dst m c) := by
  show StableHlo.after hostOps6 (W9 m ρ c) (Proc.devRef .tc main_v58) = _
  dsimp only [hostOps6]
  after_results_simp
  rw [at9_v48 m ρ c, at9_arg0 m ρ c, at9_arg1 m ρ c]
  rfl

/-! ## Boundary 11: after pallas_call 6 (the third step's mix): the program's result -/

theorem at11_v59 : W11 m ρ c (Proc.devRef .tc main_v59) = result (src m c) (dst m c) (feat m c) :=
  (W11_arr m ρ c 4).trans ((result6 (V10 m ρ) c).trans (mixRows_congr wOne wZero (at10_v58 m ρ c) (at10_v22 m ρ c) (at10_v47 m ρ c) (at10_v23 m ρ c)))

end Cert.KernelIdeal.Fold

end
-- ==== Proof.KernelRun.lean ====
/-
  The kernel program's run with its result named: every weakly fair execution from a launch memory terminates
  without a fault, the argument arrays unchanged, and the result buffer holding three propagation steps from the
  features. The run is the library's theorem for a program of several pallas_calls among host stretches, over the
  generated segments; its last thread state has every unscoped buffer at the last boundary's contents, and the
  result buffer's contents there are read by the walk through the boundaries.
-/
import proofs.«100235_j40467181863409_1_alg».proof.Proof.Gen.KernelIdeal.Frame
import proofs.«100235_j40467181863409_1_alg».proof.Proof.Fold

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the library theorem's implicit arguments are found by unifying its conclusion with this one, which takes unfolding
-- plain definitions in a metavariable's type
set_option backward.isDefEq.respectTransparency.types false in
/-- Every weakly fair execution of the kernel program terminates without a fault with its result buffer at three
    propagation steps from the features and the argument arrays as launched. -/
theorem run : θ_run defs (onTc (τ := τ) (main (F := Ideal))) ⟨m, fun _ => 0, ρ⟩ (fun r => ∀ c : Dev nD,
      r.2.mem ((c.tc : Thread nD τ).loc main_v59) = Hops.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨(h c _ (mem_uc main_v59 (by decide))).trans (Fold.at11_v59 m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.KernelIdeal.RunValue

end
-- ==== Proof.RefValue.lean ====
/-
  The reference program's value, named. The reference computes the same three degree columns from the destination
  list and runs three propagation steps on whole arrays: scale the rows by (deg + 1)^(-1/2) (the column stretched
  to the matrix's shape), gather along the sources and scatter-add along the destinations into zeros, multiply by
  the stretched column (deg + 1)^(-1) and then by the stretched column sqrt(deg + 1), and mix:
  one * that + zero * h + one * (features * stretched (deg + 1)^(-1)). Its result term, as the generated run states
  it, is three such steps from the features, by unfolding.
-/
import proofs.«100235_j40467181863409_1_alg».proof.ReferenceIdeal
import proofs.«100235_j40467181863409_1_alg».proof.Proof.Gen.ReferenceIdeal
import proofs.«100235_j40467181863409_1_alg».proof.Proof.Gen.ReferenceIdeal.Run
import Idealize.ShloMosaic.PureOps.Ideal

set_option maxRecDepth 16384

noncomputable section

namespace Cert.ReferenceIdeal.RefValue

open Idealize.ShloMosaic Idealize.ShloMosaic.TcCoe Idealize.SL.Sem Cert.ReferenceIdeal
open Cert.ReferenceIdeal.Facts₀ Cert.ReferenceIdeal.Facts

/-- An edge list: 850000 node numbers as 32-bit words. -/
abbrev Edges : Type := IVec S850000 32
/-- A node-feature matrix [50000, 96] of extended reals. -/
abbrev Feat : Type := FVec Ideal S50000x96 .f32
/-- A column [50000, 1] over the nodes. -/
abbrev NodeCol : Type := FVec Ideal S50000x1 .f32

/-- The in-degree of every node along the destination list (ones scatter-added into zeros), less one. -/
def degs (dst : Edges) : FVec Ideal S50000 .f32 :=
  subf (Host.scatterAdd scatter_S50000_S850000x1_S850000_n_0_0_1
      (broadcastInDim S50000 ![] Facts₀.bcast_S_S50000 (constant S_ .f32 0x00000000#32))
      (broadcastInDim S850000x1 ![0] Facts₀.bcast_S850000_S850000x1_0 dst)
      (broadcastInDim S850000 ![] Facts₀.bcast_S_S850000 (constant S_ .f32 0x3F800000#32)))
    (broadcastInDim S50000 ![] Facts₀.bcast_S_S50000 (constant S_ .f32 0x3F800000#32))

/-- The column (1 * deg + 1)^(-1). -/
def colInv (dst : Edges) : NodeCol :=
  broadcastInDim S50000x1 ![0] Facts₀.bcast_S50000_S50000x1_0
    (Host.powf (addf (mulf (broadcastInDim S50000 ![] Facts₀.bcast_S_S50000 (constant S_ .f32 0x3F800000#32)) (degs dst))
        (broadcastInDim S50000 ![] Facts₀.bcast_S_S50000 (constant S_ .f32 0x3F800000#32)))
      (broadcastInDim S50000 ![] Facts₀.bcast_S_S50000 (constant S_ .f32 0xBF800000#32)))

/-- The column sqrt(deg + 1). -/
def colSqrt (dst : Edges) : NodeCol :=
  broadcastInDim S50000x1 ![0] Facts₀.bcast_S50000_S50000x1_0
    (Host.sqrt (addf (degs dst) (broadcastInDim S50000 ![] Facts₀.bcast_S_S50000 (constant S_ .f32 0x3F800000#32))))

/-- The column (deg + 1)^(-1/2). -/
def colRsqrt (dst : Edges) : NodeCol :=
  broadcastInDim S50000x1 ![0] Facts₀.bcast_S50000_S50000x1_0
    (Host.powf (addf (degs dst) (broadcastInDim S50000 ![] Facts₀.bcast_S_S50000 (constant S_ .f32 0x3F800000#32)))
      (broadcastInDim S50000 ![] Facts₀.bcast_S_S50000 (constant S_ .f32 0xBF000000#32)))

/-- A column stretched along the rows to the matrix's shape. -/
abbrev stretch (s : NodeCol) : Feat := broadcastInDim S50000x96 ![0, 1] Facts₀.bcast_S50000x1_S50000x96_0_1 s

/-- A scalar word splat to the matrix's shape. -/
abbrev splat (w : BitVec 32) : Feat := broadcastInDim S50000x96 ![] Facts₀.bcast_S_S50000x96 (constant S_ .f32 w)

/-- The rows of x at the sources, summed into the destinations: the source numbers wrapped when negative, a row
    gather along them, a scatter-add along the destination list into zeros. -/
def aggregate (x : Feat) (src dst : Edges) : Feat :=
  Host.scatterAdd scatter_S50000x96_S850000x1_S850000x96_1_0_0_1
    (broadcastInDim S50000x96 ![] Facts₀.bcast_S_S50000x96 (constant S_ .f32 0x00000000#32))
    (broadcastInDim S850000x1 ![0] Facts₀.bcast_S850000_S850000x1_0 dst)
    (Host.gather gather_S50000x96_S850000x1_S850000x96_1_0_n_n_0_1_196 x
      (broadcastInDim S850000x1 ![0] Facts₀.bcast_S850000_S850000x1_0
        (select (cmpi .slt src (broadcastInDim S850000 ![] Facts₀.bcast_S_S850000 (constantI S_ 32 0#32)))
          (addi src (broadcastInDim S850000 ![] Facts₀.bcast_S_S850000 (constantI S_ 32 50000#32))) src)))

/-- One propagation step of the reference from h. -/
def hop (src dst : Edges) (feat h : Feat) : Feat :=
  addf (addf (mulf (splat 0x3F800000#32)
        (mulf (mulf (aggregate (mulf h (stretch (colRsqrt dst))) src dst) (stretch (colInv dst))) (stretch (colSqrt dst))))
      (mulf (splat 0x00000000#32) h))
    (mulf (splat 0x3F800000#32) (mulf feat (stretch (colInv dst))))

/-- The reference's result: three steps from the features. -/
def result (src dst : Edges) (feat : Feat) : Feat := hop src dst feat (hop src dst feat (hop src dst feat feat))

/-- The generated run's result term is three propagation steps from the features. -/
theorem res_eq (m : (ℓ : Loc nD τ sig) → Buf (Elt Ideal) ℓ) (c : Dev nD) :
    Cert.ReferenceIdeal.Value.res_main_v95 (F := Ideal) m c
      = result (m ((c.tc : Thread nD τ).loc main_arg0)) (m ((c.tc : Thread nD τ).loc main_arg1)) (m ((c.tc : Thread nD τ).loc main_arg2)) := by
  unfold Cert.ReferenceIdeal.Value.res_main_v95
  rfl

end Cert.ReferenceIdeal.RefValue

end
-- ==== Proof.Bridge.lean ====
/-
  The two programs compute one function. Index by index: the kernel's "rows scaled by a column" is the reference's
  product with the column stretched along the rows; the kernel's mix multiplies the aggregate by the product of the
  columns (deg + 1)^(-1) and sqrt(deg + 1), the reference multiplies by the one and then by the other, and the
  product on the extended reals is associative — no finiteness is needed, so the precondition is never opened.
  The degree columns and the gather / scatter-add along the edges are the same operations in both programs.
-/
import proofs.«100235_j40467181863409_1_alg».proof.Proof.Hops
import proofs.«100235_j40467181863409_1_alg».proof.Proof.RefValue
import Idealize.ShloMosaic.Lib.ValueIdx

set_option maxRecDepth 16384

noncomputable section

namespace Cert.Bridge

open Idealize.ShloMosaic Idealize.ShloMosaic.ValueIdx Cert.RowScale Cert.KernelIdeal.Body

/-- Rows scaled by a column are the product with the column stretched along the rows. -/
theorem scaleRows_eq (x : Cert.ReferenceIdeal.RefValue.Feat) (s : Cert.ReferenceIdeal.RefValue.NodeCol) :
    scaleRows (a := 50000) (b := 96) x s = mulf x (Cert.ReferenceIdeal.RefValue.stretch s) := by
  funext i
  obtain ⟨p, q, rfl⟩ : ∃ (p : Fin 50000) (q : Fin 96), i = ix2 p q := ⟨i 0, i 1, eq_ix2 i⟩
  show x (ix2 p q) * s (rowOf (ix2 p q)) = x (ix2 p q) * broadcastInDim (⟨2, ![50000, 96]⟩ : Shape) ![0, 1] _ s (ix2 p q)
  rw [broadcastInDim_col_apply, rowOf_ix2]

/-- The kernel's mix with the column product u * v is the reference's: multiply the aggregate by the stretched u,
    then by the stretched v, weigh by the splat words and add. The one law used is associativity of the product. -/
theorem mixRows_eq (agg hpre hinit : Cert.ReferenceIdeal.RefValue.Feat) (u v : Cert.ReferenceIdeal.RefValue.NodeCol) :
    mixRows (a := 50000) (b := 96) wOne wZero agg (mulf u v) hpre hinit
      = addf (addf (mulf (Cert.ReferenceIdeal.RefValue.splat 0x3F800000#32)
            (mulf (mulf agg (Cert.ReferenceIdeal.RefValue.stretch u)) (Cert.ReferenceIdeal.RefValue.stretch v)))
          (mulf (Cert.ReferenceIdeal.RefValue.splat 0x00000000#32) hpre))
        (mulf (Cert.ReferenceIdeal.RefValue.splat 0x3F800000#32) hinit) := by
  funext i
  obtain ⟨p, q, rfl⟩ : ∃ (p : Fin 50000) (q : Fin 96), i = ix2 p q := ⟨i 0, i 1, eq_ix2 i⟩
  show wOne * (agg (ix2 p q) * (u (rowOf (ix2 p q)) * v (rowOf (ix2 p q)))) + wZero * hpre (ix2 p q) + wOne * hinit (ix2 p q)
    = broadcastInDim (⟨2, ![50000, 96]⟩ : Shape) ![] _ (constant (F := Ideal) (⟨0, ![]⟩ : Shape) .f32 0x3F800000#32) (ix2 p q)
        * (agg (ix2 p q) * broadcastInDim (⟨2, ![50000, 96]⟩ : Shape) ![0, 1] _ u (ix2 p q)
            * broadcastInDim (⟨2, ![50000, 96]⟩ : Shape) ![0, 1] _ v (ix2 p q))
      + broadcastInDim (⟨2, ![50000, 96]⟩ : Shape) ![] _ (constant (F := Ideal) (⟨0, ![]⟩ : Shape) .f32 0x00000000#32) (ix2 p q) * hpre (ix2 p q)
      + broadcastInDim (⟨2, ![50000, 96]⟩ : Shape) ![] _ (constant (F := Ideal) (⟨0, ![]⟩ : Shape) .f32 0x3F800000#32) (ix2 p q) * hinit (ix2 p q)
  rw [broadcastInDim_col_apply, broadcastInDim_col_apply, broadcastInDim_scalar_apply, broadcastInDim_scalar_apply, rowOf_ix2,
    mul_colProd (agg (ix2 p q)) (u (ix2 p (0 : Fin 1))) (v (ix2 p (0 : Fin 1)))]
  rfl

/-- The in-degree columns are the same host operations in both programs. -/
theorem colInv_eq (dst : Cert.ReferenceIdeal.RefValue.Edges) : Cert.KernelIdeal.Hops.colInv dst = Cert.ReferenceIdeal.RefValue.colInv dst := rfl
theorem colSqrt_eq (dst : Cert.ReferenceIdeal.RefValue.Edges) : Cert.KernelIdeal.Hops.colSqrt dst = Cert.ReferenceIdeal.RefValue.colSqrt dst := rfl
theorem colRsqrt_eq (dst : Cert.ReferenceIdeal.RefValue.Edges) : Cert.KernelIdeal.Hops.colRsqrt dst = Cert.ReferenceIdeal.RefValue.colRsqrt dst := rfl

/-- The gather along the sources and the scatter-add along the destinations are the same host operations in both programs. -/
theorem aggregate_eq (x : Cert.ReferenceIdeal.RefValue.Feat) (src dst : Cert.ReferenceIdeal.RefValue.Edges) :
    Cert.KernelIdeal.Hops.aggregate x src dst = Cert.ReferenceIdeal.RefValue.aggregate x src dst := rfl

/-- One propagation step is the same function in both programs. -/
theorem hop_eq (src dst : Cert.ReferenceIdeal.RefValue.Edges) (feat h : Cert.ReferenceIdeal.RefValue.Feat) :
    Cert.KernelIdeal.Hops.hop src dst feat h = Cert.ReferenceIdeal.RefValue.hop src dst feat h := by
  unfold Cert.KernelIdeal.Hops.hop Cert.KernelIdeal.Hops.hInit Cert.KernelIdeal.Hops.colPost Cert.ReferenceIdeal.RefValue.hop
  rw [mixRows_eq, scaleRows_eq, scaleRows_eq, aggregate_eq, colInv_eq, colSqrt_eq, colRsqrt_eq]

/-- Three propagation steps are the same function in both programs. -/
theorem result_eq (src dst : Cert.ReferenceIdeal.RefValue.Edges) (feat : Cert.ReferenceIdeal.RefValue.Feat) :
    Cert.KernelIdeal.Hops.result src dst feat = Cert.ReferenceIdeal.RefValue.result src dst feat := by
  unfold Cert.KernelIdeal.Hops.result Cert.ReferenceIdeal.RefValue.result
  rw [hop_eq, hop_eq, hop_eq]

end Cert.Bridge

end
-- ==== Proof.lean ====
/-
  Three steps of degree-normalised graph propagation with a residual term: the kernel program (row scalings and
  the residual mix as pallas_calls over ten row blocks, the gather and scatter-add along the edges on the host)
  against the plain array program.

  With d the in-degree less one, both programs compute, three times from h = features,
      h ← 1 * (A (h * (d+1)^(-1/2)) * (d+1)^(-1) * sqrt(d+1)) + 0 * h + 1 * (features * (d+1)^(-1)),
  A the sum of the source rows into the destinations. The kernel multiplies the aggregate by the product of the two
  columns, the reference by the one and then by the other; on the extended reals the product is associative, so
  the two results agree entry by entry with no assumption on the inputs (the finiteness precondition is not used
  for the value). Every block a pallas_call writes is the restriction of one whole-array function and the blocks
  tile the array, so each call's output is that function of the arrays it finds; walking the program's boundaries
  gives the result buffer as three steps from the features. The idealisation rewrote nothing, so the kernel
  program at the ideal instance is its own text.
-/
import proofs.«100235_j40467181863409_1_alg».proof.Defs
import proofs.«100235_j40467181863409_1_alg».proof.Proof.Gen.Kernel
import proofs.«100235_j40467181863409_1_alg».proof.Proof.Gen.Kernel.Skeleton
import proofs.«100235_j40467181863409_1_alg».proof.Proof.Gen.Kernel.Launch
import proofs.«100235_j40467181863409_1_alg».proof.Proof.Gen.Kernel.Points
import proofs.«100235_j40467181863409_1_alg».proof.Proof.Gen.Kernel.Frame
import proofs.«100235_j40467181863409_1_alg».proof.Proof.Gen.KernelIdeal
import proofs.«100235_j40467181863409_1_alg».proof.Proof.Gen.KernelIdeal.Skeleton
import proofs.«100235_j40467181863409_1_alg».proof.Proof.Gen.KernelIdeal.Launch
import proofs.«100235_j40467181863409_1_alg».proof.Proof.Gen.KernelIdeal.Points
import proofs.«100235_j40467181863409_1_alg».proof.Proof.Gen.KernelIdeal.Frame
import proofs.«100235_j40467181863409_1_alg».proof.Proof.Gen.ReferenceIdeal
import proofs.«100235_j40467181863409_1_alg».proof.Proof.Gen.ReferenceIdeal.Run
import proofs.«100235_j40467181863409_1_alg».proof.Proof.Gen.ReferenceIdeal.Read
import proofs.«100235_j40467181863409_1_alg».proof.Proof.Gen.Pre_finite_inputs
import proofs.«100235_j40467181863409_1_alg».proof.Proof.KernelRun
import proofs.«100235_j40467181863409_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The kernel program at the ideal instance runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with three propagation steps from the features in their result buffers: the kernel's by
    the walk through its boundaries, the reference's by unfolding its run's term, and one step is the same
    function in both (associativity of the product). -/
theorem algebraic : Cert.algebraic_KernelIdeal_ReferenceIdeal := by
  intro m ρ m' ρ' _ hagree
  refine ⟨fun c => Cert.KernelIdeal.Hops.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2]
  exact (Cert.Bridge.result_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
